-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S100000x1_S_d0_1 : S100000x1.ReducesTo [0, 1] S_
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def fn_part4 {F : FTy → Type} [FloatOps F] (main_v18 : IVec S_ 1) (main_v61 : FVec F S100000x128 .f32) (main_v62 : IVec S1600000x1 32) (main_v71 : FVec F S1600000x128 .f32) (main_v72 : FVec F S1600000x128 .f32) : IVec S_ 1 :=
  let main_v73 : FVec F S1600000x128 .f32 := mulf main_v72 main_v71
  let main_v74 : FVec F S100000x128 .f32 := (fun x i u => Host.scatterAdd scatter_S100000x128_S1600000x1_S1600000x128_1_0_0_1 x i u) main_v61 main_v62 main_v73
  let main_cst_21 : FVec F S_ .f32 := constant S_ .f32 0x00000000#32
  let main_v75 : FVec F S100000 .f32 := (fun x v => Host.reduceAdd x v reducesTo_S100000x128_S100000_d1 h_S_) main_v74 main_cst_21
  let main_v76 : FVec F S100000x1 .f32 := broadcastInDim S100000x1 ![0] bcast_S100000_S100000x1_0 main_v75
  let main_cst_22 : FVec F S_ .f32 := constant S_ .f32 0x43000000#32
  let main_v77 : FVec F S100000x1 .f32 := broadcastInDim S100000x1 ![] bcast_S_S100000x1 main_cst_22
  let main_v78 : FVec F S100000x1 .f32 := Host.divf main_v76 main_v77
  let main_cst_23 : FVec F S_ .f32 := constant S_ .f32 0x358637BD#32
  let main_v79 : FVec F S100000x1 .f32 := broadcastInDim S100000x1 ![] bcast_S_S100000x1 main_cst_23
  let main_v80 : FVec F S100000x1 .f32 := addf main_v78 main_v79
  let main_cst_24 : FVec F S_ .f32 := constant S_ .f32 0x00000000#32
  let main_v81 : FVec F S100000x1 .f32 := broadcastInDim S100000x1 ![] bcast_S_S100000x1 main_cst_24
  let main_v82 : IVec S100000x1 1 := cmpf .ogt main_v80 main_v81
  let main_c_25 : IVec S_ 1 := constantI S_ 1 1#1
  let main_v83 : IVec S_ 1 := (fun x v => Host.reduce IntOp.andi x v reducesTo_S100000x1_S_d0_1 h_S_) main_v82 main_c_25
  let main_v84 : IVec S_ 1 := andi main_v18 main_v83
  main_v84

def fn_part3 {F : FTy → Type} [FloatOps F] (main_arg0 : FVec F S100000x128 .f32) (main_arg4 : IVec S1600000 32) (main_arg5 : IVec S1600000 32) (main_v18 : IVec S_ 1) (main_v41 : FVec F S1600000 .f32) (main_v42 : FVec F S100000x128 .f32) (main_v43 : IVec S1600000x1 32) (main_v53 : FVec F S1600000x128 .f32) : IVec S_ 1 :=
  let main_v54 : FVec F S100000x128 .f32 := (fun x i u => Host.scatterAdd scatter_S100000x128_S1600000x1_S1600000x128_1_0_0_1 x i u) main_v42 main_v43 main_v53
  let main_cst_16 : FVec F S_ .f32 := constant S_ .f32 0x00000000#32
  let main_v55 : FVec F S100000 .f32 := (fun x v => Host.reduceAdd x v reducesTo_S100000x128_S100000_d1 h_S_) main_v54 main_cst_16
  let main_v56 : FVec F S100000x1 .f32 := broadcastInDim S100000x1 ![0] bcast_S100000_S100000x1_0 main_v55
  let main_cst_17 : FVec F S_ .f32 := constant S_ .f32 0x43000000#32
  let main_v57 : FVec F S100000x1 .f32 := broadcastInDim S100000x1 ![] bcast_S_S100000x1 main_cst_17
  let main_v58 : FVec F S100000x1 .f32 := Host.divf main_v56 main_v57
  let main_v59 : FVec F S100000x128 .f32 := broadcastInDim S100000x128 ![0, 1] bcast_S100000x1_S100000x128_0_1 main_v58
  let main_v60 : FVec F S100000x128 .f32 := subf main_arg0 main_v59
  let main_cst_18 : FVec F S_ .f32 := constant S_ .f32 0x00000000#32
  let main_v61 : FVec F S100000x128 .f32 := broadcastInDim S100000x128 ![] bcast_S_S100000x128 main_cst_18
  let main_v62 : IVec S1600000x1 32 := broadcastInDim S1600000x1 ![0] bcast_S1600000_S1600000x1_0 main_arg4
  let main_v63 : FVec F S1600000x1 .f32 := broadcastInDim S1600000x1 ![0] bcast_S1600000_S1600000x1_0 main_v41
  let main_c_19 : IVec S_ 32 := constantI S_ 32 0#32
  let main_v64 : IVec S1600000 32 := broadcastInDim S1600000 ![] bcast_S_S1600000 main_c_19
  let main_v65 : IVec S1600000 1 := cmpi .slt main_arg5 main_v64
  let main_c_20 : IVec S_ 32 := constantI S_ 32 100000#32
  let main_v66 : IVec S1600000 32 := broadcastInDim S1600000 ![] bcast_S_S1600000 main_c_20
  let main_v67 : IVec S1600000 32 := addi main_arg5 main_v66
  let main_v68 : IVec S1600000 32 := select main_v65 main_v67 main_arg5
  let main_v69 : IVec S1600000x1 32 := broadcastInDim S1600000x1 ![0] bcast_S1600000_S1600000x1_0 main_v68
  let main_v70 : FVec F S1600000x128 .f32 := (fun x i => Host.gather gather_S100000x128_S1600000x1_S1600000x128_1_0_n_n_0_1_1128 x i) main_v60 main_v69
  let main_v71 : FVec F S1600000x128 .f32 := mulf main_v70 main_v70
  let main_v72 : FVec F S1600000x128 .f32 := broadcastInDim S1600000x128 ![0, 1] bcast_S1600000x1_S1600000x128_0_1 main_v63
  fn_part4 (F := F) main_v18 main_v61 main_v62 main_v71 main_v72

def fn_part2 {F : FTy → Type} [FloatOps F] (main_arg0 : FVec F S100000x128 .f32) (main_arg4 : IVec S1600000 32) (main_arg5 : IVec S1600000 32) (main_v18 : IVec S_ 1) (main_v25 : FVec F S100000 .f32) (main_v33 : FVec F S1600000 .f32) (main_c_11 : IVec S_ 32) : IVec S_ 1 :=
  let main_v34 : IVec S1600000 32 := broadcastInDim S1600000 ![] bcast_S_S1600000 main_c_11
  let main_v35 : IVec S1600000 1 := cmpi .slt main_arg5 main_v34
  let main_c_12 : IVec S_ 32 := constantI S_ 32 100000#32
  let main_v36 : IVec S1600000 32 := broadcastInDim S1600000 ![] bcast_S_S1600000 main_c_12
  let main_v37 : IVec S1600000 32 := addi main_arg5 main_v36
  let main_v38 : IVec S1600000 32 := select main_v35 main_v37 main_arg5
  let main_v39 : IVec S1600000x1 32 := broadcastInDim S1600000x1 ![0] bcast_S1600000_S1600000x1_0 main_v38
  let main_v40 : FVec F S1600000 .f32 := (fun x i => Host.gather gather_S100000_S1600000x1_S1600000_n_0_n_n_0_1_1 x i) main_v25 main_v39
  let main_v41 : FVec F S1600000 .f32 := mulf main_v33 main_v40
  let main_cst_13 : FVec F S_ .f32 := constant S_ .f32 0x00000000#32
  let main_v42 : FVec F S100000x128 .f32 := broadcastInDim S100000x128 ![] bcast_S_S100000x128 main_cst_13
  let main_v43 : IVec S1600000x1 32 := broadcastInDim S1600000x1 ![0] bcast_S1600000_S1600000x1_0 main_arg4
  let main_v44 : FVec F S1600000x1 .f32 := broadcastInDim S1600000x1 ![0] bcast_S1600000_S1600000x1_0 main_v41
  let main_c_14 : IVec S_ 32 := constantI S_ 32 0#32
  let main_v45 : IVec S1600000 32 := broadcastInDim S1600000 ![] bcast_S_S1600000 main_c_14
  let main_v46 : IVec S1600000 1 := cmpi .slt main_arg5 main_v45
  let main_c_15 : IVec S_ 32 := constantI S_ 32 100000#32
  let main_v47 : IVec S1600000 32 := broadcastInDim S1600000 ![] bcast_S_S1600000 main_c_15
  let main_v48 : IVec S1600000 32 := addi main_arg5 main_v47
  let main_v49 : IVec S1600000 32 := select main_v46 main_v48 main_arg5
  let main_v50 : IVec S1600000x1 32 := broadcastInDim S1600000x1 ![0] bcast_S1600000_S1600000x1_0 main_v49
  let main_v51 : FVec F S1600000x128 .f32 := (fun x i => Host.gather gather_S100000x128_S1600000x1_S1600000x128_1_0_n_n_0_1_1128 x i) main_arg0 main_v50
  let main_v52 : FVec F S1600000x128 .f32 := broadcastInDim S1600000x128 ![0, 1] bcast_S1600000x1_S1600000x128_0_1 main_v44
  let main_v53 : FVec F S1600000x128 .f32 := mulf main_v52 main_v51
  fn_part3 (F := F) main_arg0 main_arg4 main_arg5 main_v18 main_v41 main_v42 main_v43 main_v53

def fn_part1 {F : FTy → Type} [FloatOps F] (main_arg0 : FVec F S100000x128 .f32) (main_arg1 : FVec F S1600000 .f32) (main_arg4 : IVec S1600000 32) (main_arg5 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_cst_6 : FVec F S_ .f32 := constant S_ .f32 0x00000000#32
  let main_v19 : FVec F S100000 .f32 := broadcastInDim S100000 ![] bcast_S_S100000 main_cst_6
  let main_v20 : IVec S1600000x1 32 := broadcastInDim S1600000x1 ![0] bcast_S1600000_S1600000x1_0 main_arg4
  let main_v21 : FVec F S100000 .f32 := (fun x i u => Host.scatterAdd scatter_S100000_S1600000x1_S1600000_n_0_0_1 x i u) main_v19 main_v20 main_arg1
  let main_cst_7 : FVec F S_ .f32 := constant S_ .f32 0x358637BD#32
  let main_v22 : FVec F S100000 .f32 := broadcastInDim S100000 ![] bcast_S_S100000 main_cst_7
  let main_v23 : FVec F S100000 .f32 := addf main_v21 main_v22
  let main_cst_8 : FVec F S_ .f32 := constant S_ .f32 0xBF000000#32
  let main_v24 : FVec F S100000 .f32 := broadcastInDim S100000 ![] bcast_S_S100000 main_cst_8
  let main_v25 : FVec F S100000 .f32 := Host.powf main_v23 main_v24
  let main_c_9 : IVec S_ 32 := constantI S_ 32 0#32
  let main_v26 : IVec S1600000 32 := broadcastInDim S1600000 ![] bcast_S_S1600000 main_c_9
  let main_v27 : IVec S1600000 1 := cmpi .slt main_arg4 main_v26
  let main_c_10 : IVec S_ 32 := constantI S_ 32 100000#32
  let main_v28 : IVec S1600000 32 := broadcastInDim S1600000 ![] bcast_S_S1600000 main_c_10
  let main_v29 : IVec S1600000 32 := addi main_arg4 main_v28
  let main_v30 : IVec S1600000 32 := select main_v27 main_v29 main_arg4
  let main_v31 : IVec S1600000x1 32 := broadcastInDim S1600000x1 ![0] bcast_S1600000_S1600000x1_0 main_v30
  let main_v32 : FVec F S1600000 .f32 := (fun x i => Host.gather gather_S100000_S1600000x1_S1600000_n_0_n_n_0_1_1 x i) main_v25 main_v31
  let main_v33 : FVec F S1600000 .f32 := mulf main_v32 main_arg1
  let main_c_11 : IVec S_ 32 := constantI S_ 32 0#32
  fn_part2 (F := F) main_arg0 main_arg4 main_arg5 main_v18 main_v25 main_v33 main_c_11

def fn {F : FTy → Type} [FloatOps F] (main_arg0 : FVec F S100000x128 .f32) (main_arg1 : FVec F S1600000 .f32) (main_arg2 : FVec F S128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg4 main_arg5 main_v13 main_v16
-- ==== Kernel.lean ====
abbrev S100000x128 : Shape := ⟨2, ![100000, 128]⟩
abbrev S1600000 : Shape := ⟨1, ![1600000]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S2000x1 : Shape := ⟨2, ![2000, 1]⟩
abbrev S2000 : Shape := ⟨1, ![2000]⟩
abbrev S1x128 : Shape := ⟨2, ![1, 128]⟩

abbrev nBuf : Space → Nat
  | .hbm => 78
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000, .f32⟩
  | .hbm, ⟨25, _⟩ => ⟨S1600000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S100000x1, .f32⟩
  | .hbm, ⟨37, _⟩ => ⟨S100000x1, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S100000x1, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000, .f32⟩
  | .hbm, ⟨59, _⟩ => ⟨S100000, .f32⟩
  | .hbm, ⟨60, _⟩ => ⟨S100000, .f32⟩
  | .hbm, ⟨61, _⟩ => ⟨S100000, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000, .f32⟩
  | .hbm, ⟨71, _⟩ => ⟨S1600000, .f32⟩
  | .hbm, ⟨72, _⟩ => ⟨S_, .f32⟩
  | .hbm, ⟨73, _⟩ => ⟨S100000, .f32⟩
  | .hbm, ⟨74, _⟩ => ⟨S1600000x1, .i32⟩
  | .hbm, ⟨75, _⟩ => ⟨S100000, .f32⟩
  | .hbm, ⟨76, _⟩ => ⟨S100000x1, .f32⟩
  | .hbm, ⟨77, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  bcast_S100000_S100000x1_0 : S100000.BroadcastsInDim S100000x1 (![0] : Fin 1 → Fin S100000x1.rank)
  shapeCasts_S2000x1_S2000x1 : S2000x1.ShapeCasts S2000x1
  broadcasts_S2000x1_S2000x128 : S2000x1.Broadcasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23_0) S2000x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23_1) S2000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000, .f32⟩
  | .hbm, ⟨25, _⟩ => ⟨S1600000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S1600000x1, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S100000, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S1600000x1, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S1600000x128, .f32⟩
  | .hbm, ⟨71, _⟩ => ⟨S1600000x128, .f32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S_, .f32⟩
  | .hbm, ⟨78, _⟩ => ⟨S100000, .f32⟩
  | .hbm, ⟨79, _⟩ => ⟨S100000x1, .f32⟩
  | .hbm, ⟨80, _⟩ => ⟨S_, .f32⟩
  | .hbm, ⟨81, _⟩ => ⟨S100000x1, .f32⟩
  | .hbm, ⟨82, _⟩ => ⟨S100000x1, .f32⟩
  | .hbm, ⟨83, _⟩ => ⟨S_, .f32⟩
  | .hbm, ⟨84, _⟩ => ⟨S100000x1, .f32⟩
  | .hbm, ⟨85, _⟩ => ⟨S100000x1, .f32⟩
  | .hbm, ⟨86, _⟩ => ⟨S100000x1, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_c_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The kernel program's run with its result named. The program is four segments: a stretch of host operations, the first
  pipelined region, a second stretch, the second region. After the last segment every buffer a device thread can name
  holds the contents the fold through the four segments assigns to it; the result buffer is one of them, and the six
  argument buffers are read back to their launch contents.
-/
import proofs.«175817_j26482768347668_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    contents the fold through the segments gives it and the arguments as launched. -/
theorem run_value : θ_run defs (onTc (τ := τ) (main (F := F))) ⟨m, fun _ => 0, ρ⟩ (fun r => ∀ c : Dev nD,
      r.2.mem ((c.tc : Thread nD τ).loc main_v56) = W4 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v56 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.KernelHostDefs.lean ====
/-
  The host operations between the two streaming passes, as pure functions of what they read.

  From the per-node means s1 and s2 (columns [N,1]), the edge weights w and the edges' row and column numbers they form:
  the per-node mean  m = segment_sum(w · s1[col], row),  the per-node scalar  u = s2 − 2 m s1 + m²,  and the per-node
  variance  segment_sum(w · u[col], row) ; the mean and the variance are handed on as columns.
-/
import proofs.«175817_j26482768347668_2_alg».proof.KernelIdeal
import Idealize.ShloMosaic.PureOps.Ideal

noncomputable section

namespace Cert.KernelIdeal.HostDefs

open Cert.KernelIdeal Cert.KernelIdeal.Facts₀ Cert.KernelIdeal.Facts Idealize.ShloMosaic

variable [Cert.KernelIdeal.Facts]

/-- A column [N,1] read as a vector [N]. -/
def flat (x : FVec Ideal S100000x1 .f32) : FVec Ideal S100000 .f32 := shapeCast S100000 x shapeCasts_S100000x1_S100000

/-- A vector [N] handed on as a column [N,1]. -/
def col1 (v : FVec Ideal S100000 .f32) : FVec Ideal S100000x1 .f32 :=
  broadcastInDim S100000x1 ![0] bcast_S100000_S100000x1_0 v

/-- The edges' numbers as a column of row numbers, negative numbers moved up by the node count (a lookup's indices). -/
def colIdx (col : IVec S1600000 32) : IVec S1600000x1 32 :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 100000#32))) col)

/-- The edges' row numbers as a column (a segment sum's indices). -/
def rowIdx (row : IVec S1600000 32) : IVec S1600000x1 32 :=
  broadcastInDim S1600000x1 ![0] bcast_S1600000_S1600000x1_0 row

/-- The sum of the per-edge values over the edges landing on each node. -/
def segSum (row : IVec S1600000 32) (upd : FVec Ideal S1600000 .f32) : FVec Ideal S100000 .f32 :=
  Host.scatterAdd scatter_S100000_S1600000x1_S1600000_n_0_0_1
    (broadcastInDim S100000 ![] bcast_S_S100000 (constant S_ .f32 0x00000000#32)) (rowIdx row) upd

/-- A per-node value looked up at each edge's column number. -/
def lookup (v : FVec Ideal S100000 .f32) (col : IVec S1600000 32) : FVec Ideal S1600000 .f32 :=
  Host.gather gather_S100000_S1600000x1_S1600000_n_0_n_n_0_1_1 v (colIdx col)

/-- The per-node mean. -/
def meanFlat (w : FVec Ideal S1600000 .f32) (s1c : FVec Ideal S100000x1 .f32) (row col : IVec S1600000 32) :
    FVec Ideal S100000 .f32 :=
  segSum row (mulf w (lookup (flat s1c) col))

/-- The per-node scalar  s2 − 2 m s1 + m². -/
def uFlat (w : FVec Ideal S1600000 .f32) (s1c s2c : FVec Ideal S100000x1 .f32) (row col : IVec S1600000 32) :
    FVec Ideal S100000 .f32 :=
  addf
    (subf (flat s2c)
      (mulf (mulf (broadcastInDim S100000 ![] bcast_S_S100000 (constant S_ .f32 0x40000000#32)) (meanFlat w s1c row col))
        (flat s1c)))
    (mulf (meanFlat w s1c row col) (meanFlat w s1c row col))

/-- The per-node variance. -/
def varFlat (w : FVec Ideal S1600000 .f32) (s1c s2c : FVec Ideal S100000x1 .f32) (row col : IVec S1600000 32) :
    FVec Ideal S100000 .f32 :=
  segSum row (mulf w (lookup (uFlat w s1c s2c row col) col))

end Cert.KernelIdeal.HostDefs

end
-- ==== Proof.LibGatherRows.lean ====
/-
  The host's gather of whole rows, read at an index given by coordinates: what `x[idx]` lowers to for a matrix
  `x : [N, C]` (or a vector `x : [N]`) and a column of M row numbers `idx : [M, 1]` (the index vector along the
  second axis). Row e of the result is row `idx[e, 0]` of the operand, the row number read as a signed integer and
  clamped into `[0, N − 1]` — a gather clamps every start index so that the slice fits, and the slice is one row.
  The clamped row depends on the row number's word alone (`clampRow`), so a matrix and a vector gathered at the same
  column of row numbers are read at the same rows.
-/
import Idealize.ShloMosaic.Lib.ValueIdx

noncomputable section

namespace Cert.GatherRows

open Idealize.ShloMosaic Idealize.ShloMosaic.ValueIdx

/-- A row number's word read signed and clamped into the rows `[0, N − 1]` of an operand with `N > 0` rows. -/
def clampRow (N : Nat) (hN : 0 < N) {w : Nat} (v : BitVec w) : Fin N := ⟨min v.toInt.toNat (N - 1), by omega⟩

/-- A word whose signed value is the row `n` clamps to `n`. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  have := n.isLt
  rw [h]; omega

variable {α : Type}

/-! ## Rows of a matrix: operand [N, C], row numbers [M, 1], result [M, C] -/

/-- The dimension numbers of `x[idx]` for a matrix: the result's second axis is the slice's (offset axis 1), operand
    axis 0 is collapsed and is the one the start index addresses, the slice is one whole row. Their conditions `wf`
    are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (signed, clamped) and column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c) = x (ix2 (clampRow N hN (idx (ix2 e (0 : Fin 1)))) c) := by
  have h0 : (rowDims N C M wf).start (ix2 e c) idx (0 : Fin 2) + (rowDims N C M wf).batchCoord (ix2 e c) (0 : Fin 2)
      + (rowDims N C M wf).offCoord (ix2 e c) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 e c) ⟨List.idxOf (0 : Fin 2) (rowDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowDims N C M wf).start (ix2 e c) idx (1 : Fin 2) + (rowDims N C M wf).batchCoord (ix2 e c) (1 : Fin 2)
      + (rowDims N C M wf).offCoord (ix2 e c) (1 : Fin 2) = c.val := by
    rw [GatherDims.batchCoord_eq_zero _ _ _ List.not_mem_nil]
    simp only [Nat.add_zero]
    unfold GatherDims.start
    rw [dif_neg (show (1 : Fin 2) ∉ (rowDims N C M wf).startIndexMap from
      fun h => absurd (show (1 : Nat) = 0 from congrArg Fin.val (List.mem_singleton.mp h)) (by decide)), Nat.zero_add]
    rfl
  unfold Host.gather
  congr 1
  funext a
  refine Fin.ext ?_
  match a with
  | ⟨0, _⟩ => exact h0
  | ⟨1, _⟩ => exact h1

/-! ## Elements of a vector: operand [N], row numbers [M, 1], result [M] -/

/-- The dimension numbers of `x[idx]` for a vector: no offset axis, the operand's one axis collapsed and addressed by
    the start index, the slice one element. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at element `idx[e, 0]` (signed, clamped) — the same row the matrix
    gather reads. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN (idx (ix2 e (0 : Fin 1))))) := by
  unfold Host.gather
  congr 1
  funext a
  obtain rfl : a = 0 := Subsingleton.elim _ _
  refine Fin.ext ?_
  show (vecDims N M wf).start (ix1 e) idx 0 + (vecDims N M wf).batchCoord (ix1 e) 0
    + (vecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 e) ⟨List.idxOf (0 : Fin 1) (vecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.GatherRows
-- ==== Proof.Words.lean ====
/-
  How the two programs read an edge list, and the three row-wise maps the two streaming passes compute.

  An edge's row number, read as a signed word, lands the edge on node n exactly when its value is n. A number used to
  look a row up is first adjusted (a negative number is moved up by the node count) and then clamped into the nodes.
  The first streaming pass takes the mean of each feature row and of its square; the second subtracts a per-row mean,
  multiplies by the reciprocal square root of a per-row variance plus a small constant, and applies a per-column
  scale and offset.
-/
import Idealize.ShloMosaic.PureOps.Ideal.Laws
import Idealize.ShloMosaic.Lib.ValueIdx
import proofs.«175817_j26482768347668_2_alg».proof.Proof.LibGatherRows

noncomputable section

namespace Cert.LapNorm

open Idealize.ShloMosaic Idealize.ShloMosaic.ValueIdx
open scoped BigOperators

abbrev SX : Shape := ⟨2, ![100000, 128]⟩
abbrev SC : Shape := ⟨2, ![100000, 1]⟩
abbrev SD : Shape := ⟨1, ![128]⟩
abbrev SE : Shape := ⟨1, ![1600000]⟩

/-- A negative row number moved up by the node count, the others kept. -/
def wrapW (w : BitVec 32) : BitVec 32 := Scalar.select (IntOp.cmpi .slt w 0#32) (IntOp.addi w 100000#32) w

/-- Edge `e` lands on node `n`: its row number, read signed, is `n`. -/
def landsW (row : IVec SE 32) (e : Fin 1600000) (n : Fin 100000) : Prop := (row (ix1 e)).toInt = (n.val : Int)

instance (row : IVec SE 32) (e : Fin 1600000) (n : Fin 100000) : Decidable (landsW row e n) :=
  inferInstanceAs (Decidable ((row (ix1 e)).toInt = (n.val : Int)))

/-- The node an edge reads when its number `v e` is used to look a row up: adjusted, then clamped. -/
def srcW (v : IVec SE 32) (e : Fin 1600000) : Fin 100000 :=
  Cert.GatherRows.clampRow 100000 (by norm_num) (wrapW (v (ix1 e)))

/-- The mean of each feature row, as a column. -/
def rowMean (x : SX.Idx → EReal) : SC.Idx → EReal := fun i =>
  Ideal.div (∑ k : Fin 128, x (ix2 (⟨(i 0).val, (i 0).isLt⟩ : Fin 100000) k)) (Ideal.ofBits .f32 0x43000000#32)

/-- The mean of each feature row's squares, as a column. -/
def rowMeanSq (x : SX.Idx → EReal) : SC.Idx → EReal := fun i =>
  Ideal.div (∑ k : Fin 128, x (ix2 (⟨(i 0).val, (i 0).isLt⟩ : Fin 100000) k) * x (ix2 (⟨(i 0).val, (i 0).isLt⟩ : Fin 100000) k))
    (Ideal.ofBits .f32 0x43000000#32)

/-- Each row centred by its mean, scaled by the reciprocal root of its variance plus the constant, then the
    per-column scale and offset. -/
def normRows (x : SX.Idx → EReal) (mean var : SC.Idx → EReal) (scale bias : SD.Idx → EReal) : SX.Idx → EReal := fun i =>
  ((x i - mean (ix2 (⟨(i 0).val, (i 0).isLt⟩ : Fin 100000) (0 : Fin 1)))
      * Ideal.rsqrt (var (ix2 (⟨(i 0).val, (i 0).isLt⟩ : Fin 100000) (0 : Fin 1)) + Ideal.ofBits .f32 0x358637BD#32))
    * scale (ix1 (⟨(i 1).val, (i 1).isLt⟩ : Fin 128)) + bias (ix1 (⟨(i 1).val, (i 1).isLt⟩ : Fin 128))

end Cert.LapNorm

end
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.KernelBlocks.lean ====
/-
  The two streaming passes over the feature array, from row blocks to whole arrays.

  Both passes walk the 100000 feature rows in fifty blocks of 2000 rows. At block `t` the first pass reads rows
  `2000 t, …, 2000 t + 1999` and writes, for each of them, the mean of the row's 128 entries and the mean of their
  squares (each a sum over the row divided by 128) into rows `2000 t, …` of two columns. The second pass reads the same
  rows together with the matching rows of a mean column and a variance column, and the whole scale and offset vectors,
  and writes `((x - mean) * rsqrt (var + c)) * scale + offset` entry by entry into the same rows of the result.

  Every row `r` lies in exactly the block `r / 2000`, and what a block writes depends only on the rows it reads, so
  after each pass the written array is one function of the arrays read, row by row: `rowMean`, `rowMeanSq` and
  `normRows` of Words.lean. The steps: the body's arithmetic read at an entry (`mean_pay_at`, `meansq_pay_at`,
  `norm_pay_at`); the same for a block known to hold rows `2000 b, …` of the arrays (`mean_of_rows`, `meansq_of_rows`,
  `norm_of_rows`); each block read as those rows (`feature_block0`, …, `bias_block1`); what a point writes back
  (`mean_written`, `meansq_written`, `norm_written`); every row is written by some point (`…_rows_covered`); the
  arrays after the passes (`final0_1`, `final0_2`, `final1_5`).
-/
import proofs.«175817_j26482768347668_2_alg».proof.Proof.Gen.KernelIdeal.Frame
import proofs.«175817_j26482768347668_2_alg».proof.Proof.Words
import proofs.«175817_j26482768347668_2_alg».proof.Proof.LibRowLift
import Idealize.ShloMosaic.Lib.Pipeline.Value
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.TcCoe Idealize.ShloMosaic.ValueIdx
open Idealize.ShloMosaic.Pipeline (Dat)
open scoped BigOperators

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The first statistic of a block of rows: at row `p`, the sum of the row's 128 entries divided by 128. -/
theorem mean_pay_at (v0 : Vec Ideal S2000x128 .f32) (p : Fin 2000) (u : Fin 1) :
    k0_pay1 (F := Ideal) v0 (ix2 p u) = Ideal.div (∑ q : Fin 128, v0 (ix2 p q)) (Ideal.ofBits .f32 0x43000000#32) := by
  unfold k0_pay1
  dsimp only
  refine congrArg (fun z => Ideal.div z (Ideal.ofBits .f32 0x43000000#32)) ?_
  refine (shapeCast_a_a1_apply _ _ p u).trans ?_
  refine (Ideal.multiReduction_add_single v0 _ reduces_S2000x128_S2000 _ _ (ix1 p)).trans ?_
  exact Finset.sum_congr rfl fun q _ => congrArg v0 (Cert.RowLift.lift_row reduces_S2000x128_S2000 p q)

/-- The second statistic: at row `p`, the sum of the squares of the row's entries divided by 128. -/
theorem meansq_pay_at (v0 : Vec Ideal S2000x128 .f32) (p : Fin 2000) (u : Fin 1) :
    k0_pay2 (F := Ideal) v0 (ix2 p u)
      = Ideal.div (∑ q : Fin 128, v0 (ix2 p q) * v0 (ix2 p q)) (Ideal.ofBits .f32 0x43000000#32) := by
  unfold k0_pay2
  dsimp only
  refine congrArg (fun z => Ideal.div z (Ideal.ofBits .f32 0x43000000#32)) ?_
  refine (shapeCast_a_a1_apply _ _ p u).trans ?_
  refine (Ideal.multiReduction_add_single (mulf v0 v0) _ reduces_S2000x128_S2000 _ _ (ix1 p)).trans ?_
  exact Finset.sum_congr rfl fun q _ => congrArg (fun i => v0 i * v0 i) (Cert.RowLift.lift_row reduces_S2000x128_S2000 p q)

/-- The normalising pass at an entry: the entry minus its row's mean, times the reciprocal root of the row's variance
    plus the constant, times the column's scale, plus the column's offset. -/
theorem norm_pay_at (v0 : Vec Ideal S2000x128 .f32) (vvar vmean : Vec Ideal S2000x1 .f32) (vscale vbias : Vec Ideal S128 .f32)
    (p : Fin 2000) (q : Fin 128) :
    k1_pay1 (F := Ideal) v0 vvar vmean vscale vbias (ix2 p q)
      = ((v0 (ix2 p q) - vmean (ix2 p (0 : Fin 1)))
          * Ideal.rsqrt (vvar (ix2 p (0 : Fin 1)) + Ideal.ofBits .f32 0x358637BD#32))
        * vscale (ix1 q) + vbias (ix1 q) := by
  unfold k1_pay1
  have hmean : broadcastTo S2000x128 (shapeCast S2000x1 vmean shapeCasts_S2000x1_S2000x1) broadcasts_S2000x1_S2000x128 (ix2 p q)
      = vmean (ix2 p (0 : Fin 1)) := by
    rw [shapeCast_self]; exact broadcastTo_a1_ab_apply vmean _ p q
  have hvar : broadcastTo S2000x128
        (rsqrt (addf (shapeCast S2000x1 vvar shapeCasts_S2000x1_S2000x1)
          (broadcast S2000x1 (FloatOps.ofBits (F := Ideal) .f32 0x358637BD#32))))
        broadcasts_S2000x1_S2000x128 (ix2 p q)
      = Ideal.rsqrt (vvar (ix2 p (0 : Fin 1)) + Ideal.ofBits .f32 0x358637BD#32) := by
    rw [shapeCast_self]; exact broadcastTo_a1_ab_apply _ _ p q
  have hscale : broadcastTo S2000x128 (shapeCast S1x128 vscale shapeCasts_S128_S1x128) broadcasts_S1x128_S2000x128 (ix2 p q)
      = vscale (ix1 q) :=
    (broadcastTo_1b_ab_apply _ _ p q).trans (shapeCast_a_1a_apply vscale _ 0 q)
  have hbias : broadcastTo S2000x128 (shapeCast S1x128 vbias shapeCasts_S128_S1x128) broadcasts_S1x128_S2000x128 (ix2 p q)
      = vbias (ix1 q) :=
    (broadcastTo_1b_ab_apply _ _ p q).trans (shapeCast_a_1a_apply vbias _ 0 q)
  simp only [addf_apply, mulf_apply, subf_apply]
  rw [hmean, hvar, hscale, hbias]

/-! ## The first pass: fifty blocks of 2000 rows -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The first pass's index maps, decided over its fifty points: at point `t` every window sits on row block `t`. -/
theorem points0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- When a block holds rows `2000 b, …, 2000 b + 1999` of `X`, its first statistic at row `y 0` is the mean of row
    `2000 b + y 0` of `X`. -/
theorem mean_of_rows (X : Cert.LapNorm.SX.Idx → EReal) (x0 : Vec Ideal S2000x128 .f32) (b : ℕ)
    (hx : ∀ (p : Fin 2000) (q : Fin 128) (r : Fin 100000), r.val = b * 2000 + p.val → x0 (ix2 p q) = X (ix2 r q))
    (y : S2000x1.Idx) (i : Cert.LapNorm.SC.Idx) (hi : (i 0).val = b * 2000 + (y 0).val) :
    k0_pay1 (F := Ideal) x0 y = Cert.LapNorm.rowMean X i := by
  obtain ⟨p, u, rfl⟩ : ∃ (p : Fin 2000) (u : Fin 1), y = ix2 p u := ⟨y 0, y 1, eq_ix2 y⟩
  rw [mean_pay_at]
  unfold Cert.LapNorm.rowMean
  exact congrArg (fun z => Ideal.div z _) (Finset.sum_congr rfl fun q _ => hx p q _ hi)

/-- Likewise its second statistic is the mean of the squares of that row. -/
theorem meansq_of_rows (X : Cert.LapNorm.SX.Idx → EReal) (x0 : Vec Ideal S2000x128 .f32) (b : ℕ)
    (hx : ∀ (p : Fin 2000) (q : Fin 128) (r : Fin 100000), r.val = b * 2000 + p.val → x0 (ix2 p q) = X (ix2 r q))
    (y : S2000x1.Idx) (i : Cert.LapNorm.SC.Idx) (hi : (i 0).val = b * 2000 + (y 0).val) :
    k0_pay2 (F := Ideal) x0 y = Cert.LapNorm.rowMeanSq X i := by
  obtain ⟨p, u, rfl⟩ : ∃ (p : Fin 2000) (u : Fin 1), y = ix2 p u := ⟨y 0, y 1, eq_ix2 y⟩
  rw [meansq_pay_at]
  unfold Cert.LapNorm.rowMeanSq
  exact congrArg (fun z => Ideal.div z _) (Finset.sum_congr rfl fun q _ => congrArg (fun z => z * z) (hx p q _ hi))

/-- The feature block at point `t` of the first pass holds rows `2000 t, …` of the feature array. -/
theorem feature_block0 (c : Dev nD) (t : Fin cfg0.N) (p : Fin 2000) (q : Fin 128) (r : Fin 100000) (hr : r.val = t.val * 2000 + p.val) :
    (iblk0 V c 0 t : Vec Ideal S2000x128 .f32) (ix2 p q) = (V c main_arg0 : S100000x128.Idx → EReal) (ix2 r q) := by
  obtain ⟨e0, e1, -⟩ := points0 t
  show V c main_arg0 (((cfg0.win 0).blk t).view.emb (ix2 p q)) = V c main_arg0 (ix2 r q)
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * q.val = q.val; rw [e1]; omega

/-- What point `t` writes back to the mean column is block `t` of the row means of the feature array. -/
theorem mean_written (c : Dev nD) (t : Fin cfg0.N) :
    (dat0 V c).flushed 1 t = ((cfg0.win 1).blk t).view.read (Elt Ideal) (Cert.LapNorm.rowMean (V c main_arg0)) := by
  show (cfg0.win 1).cut (grid0.coords t) ((dat0 V c).after 1 t) = _
  rw [after0_1]
  unfold out0_1
  rw [View.canon_unit_zero hz2]
  simp only [View.ld_unit_zero (S := S2000x128) hz2]
  funext j
  obtain ⟨-, -, e0, -⟩ := points0 t
  refine mean_of_rows (V c main_arg0) (iblk0 V c 0 t) t.val (fun p q r hr => feature_block0 V c t p q r hr) _ _ ?_
  show win0_1.index t (0 : Fin 2) * 2000 + 1 * (j 0).val = t.val * 2000 + (j 0).val
  rw [e0]; omega

/-- What point `t` writes back to the mean-of-squares column is block `t` of the row means of squares. -/
theorem meansq_written (c : Dev nD) (t : Fin cfg0.N) :
    (dat0 V c).flushed 2 t = ((cfg0.win 2).blk t).view.read (Elt Ideal) (Cert.LapNorm.rowMeanSq (V c main_arg0)) := by
  show (cfg0.win 2).cut (grid0.coords t) ((dat0 V c).after 2 t) = _
  rw [after0_2]
  unfold out0_2
  rw [View.canon_unit_zero hz2]
  simp only [View.ld_unit_zero (S := S2000x128) hz2]
  funext j
  obtain ⟨-, -, -, -, e0, -⟩ := points0 t
  refine meansq_of_rows (V c main_arg0) (iblk0 V c 0 t) t.val (fun p q r hr => feature_block0 V c t p q r hr) _ _ ?_
  show win0_2.index t (0 : Fin 2) * 2000 + 1 * (j 0).val = t.val * 2000 + (j 0).val
  rw [e0]; omega

/-- An index of the mean column is in point `t`'s block iff each coordinate is in the block's range on its axis. -/
theorem mem_mean_block (t : Fin cfg0.N) (i : S100000x1.Idx) :
    i ∈ ((cfg0.win 1).blk t).view.set ↔ ∀ a : Fin 2, win0_1.index t a * S2000x1.size a ≤ (i a).val ∧ (i a).val < win0_1.index t a * S2000x1.size a + S2000x1.size a := by
  show i ∈ ((View.whole main_v23_0).slice (win0_1.rect t)).set ↔ _
  rw [View.set_slice_whole, Rect.mem_set_unit]
  exact Iff.rfl

/-- The same for the mean-of-squares column. -/
theorem mem_meansq_block (t : Fin cfg0.N) (i : S100000x1.Idx) :
    i ∈ ((cfg0.win 2).blk t).view.set ↔ ∀ a : Fin 2, win0_2.index t a * S2000x1.size a ≤ (i a).val ∧ (i a).val < win0_2.index t a * S2000x1.size a + S2000x1.size a := by
  show i ∈ ((View.whole main_v23_1).slice (win0_2.rect t)).set ↔ _
  rw [View.set_slice_whole, Rect.mem_set_unit]
  exact Iff.rfl

/-- Row `r` of the mean column is written back by point `r / 2000`. -/
theorem mean_rows_covered (i : S100000x1.Idx) : ∃ t : Fin cfg0.N, (cfg0.win 1).flush t = true ∧ i ∈ ((cfg0.win 1).blk t).view.set := by
  have h0 : (i 0).val < 100000 := (i 0).isLt
  have h1 : (i 1).val < 1 := (i 1).isLt
  have hN : grid0.N = 50 := N_0
  have ht : (i 0).val / 2000 < cfg0.N := by show _ < grid0.N; rw [hN]; omega
  obtain ⟨-, -, e0, e1, -⟩ := points0 ⟨(i 0).val / 2000, ht⟩
  refine ⟨⟨(i 0).val / 2000, ht⟩, flush0_1 _, ?_⟩
  rw [mem_mean_block]
  intro a
  match a with
  | ⟨0, _⟩ =>
    show win0_1.index ⟨(i 0).val / 2000, ht⟩ (0 : Fin 2) * 2000 ≤ (i 0).val ∧ (i 0).val < win0_1.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_1.index ⟨(i 0).val / 2000, ht⟩ (1 : Fin 2) * 1 ≤ (i 1).val ∧ (i 1).val < win0_1.index ⟨(i 0).val / 2000, ht⟩ (1 : Fin 2) * 1 + 1
    rw [e1]; omega

/-- Row `r` of the mean-of-squares column is written back by point `r / 2000`. -/
theorem meansq_rows_covered (i : S100000x1.Idx) : ∃ t : Fin cfg0.N, (cfg0.win 2).flush t = true ∧ i ∈ ((cfg0.win 2).blk t).view.set := by
  have h0 : (i 0).val < 100000 := (i 0).isLt
  have h1 : (i 1).val < 1 := (i 1).isLt
  have hN : grid0.N = 50 := N_0
  have ht : (i 0).val / 2000 < cfg0.N := by show _ < grid0.N; rw [hN]; omega
  obtain ⟨-, -, -, -, e0, e1⟩ := points0 ⟨(i 0).val / 2000, ht⟩
  refine ⟨⟨(i 0).val / 2000, ht⟩, flush0_2 _, ?_⟩
  rw [mem_meansq_block]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 1 ≤ (i 1).val ∧ (i 1).val < win0_2.index ⟨(i 0).val / 2000, ht⟩ (1 : Fin 2) * 1 + 1
    rw [e1]; omega

/-- After the first pass the mean column holds the row means of the feature array. -/
theorem final0_1 (c : Dev nD) : (dat0 (F := Ideal) V c).arrAt 1 cfg0.N = Cert.LapNorm.rowMean (V c main_arg0) :=
  (dat0 V c).arrAt_eq_of_cover 1 (Cert.LapNorm.rowMean (V c main_arg0)) (fun t _ => mean_written V c t) mean_rows_covered

/-- After the first pass the mean-of-squares column holds the row means of squares of the feature array. -/
theorem final0_2 (c : Dev nD) : (dat0 (F := Ideal) V c).arrAt 2 cfg0.N = Cert.LapNorm.rowMeanSq (V c main_arg0) :=
  (dat0 V c).arrAt_eq_of_cover 2 (Cert.LapNorm.rowMeanSq (V c main_arg0)) (fun t _ => meansq_written V c t) meansq_rows_covered

/-! ## The second pass: the same fifty row blocks, the scale and the offset whole at every point -/

/-- The second pass's index maps, decided over its fifty points: the feature, mean, variance and result windows sit
    on row block `t`, the scale and offset windows on their one block. -/
theorem points1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- When the blocks hold rows `2000 b, …` of the feature array `X`, of the mean column `M` and of the variance column
    `W`, and the whole scale `S` and offset `B`, the body's result at `(y 0, y 1)` is the normalised entry of `X` at
    row `2000 b + y 0`, column `y 1`. -/
theorem norm_of_rows (X : Cert.LapNorm.SX.Idx → EReal) (M W : Cert.LapNorm.SC.Idx → EReal) (S B : Cert.LapNorm.SD.Idx → EReal)
    (x0 : Vec Ideal S2000x128 .f32) (xm xv : Vec Ideal S2000x1 .f32) (xs xb : Vec Ideal S128 .f32) (b : ℕ)
    (hx : ∀ (p : Fin 2000) (q : Fin 128) (r : Fin 100000), r.val = b * 2000 + p.val → x0 (ix2 p q) = X (ix2 r q))
    (hm : ∀ (p : Fin 2000) (r : Fin 100000), r.val = b * 2000 + p.val → xm (ix2 p (0 : Fin 1)) = M (ix2 r (0 : Fin 1)))
    (hv : ∀ (p : Fin 2000) (r : Fin 100000), r.val = b * 2000 + p.val → xv (ix2 p (0 : Fin 1)) = W (ix2 r (0 : Fin 1)))
    (hs : ∀ q : Fin 128, xs (ix1 q) = S (ix1 q)) (hb : ∀ q : Fin 128, xb (ix1 q) = B (ix1 q))
    (y : S2000x128.Idx) (i : Cert.LapNorm.SX.Idx) (hi0 : (i 0).val = b * 2000 + (y 0).val) (hi1 : (i 1).val = (y 1).val) :
    k1_pay1 (F := Ideal) x0 xv xm xs xb y = Cert.LapNorm.normRows X M W S B i := by
  obtain ⟨p, q, rfl⟩ : ∃ (p : Fin 2000) (q : Fin 128), y = ix2 p q := ⟨y 0, y 1, eq_ix2 y⟩
  have hq : (⟨(i 1).val, (i 1).isLt⟩ : Fin 128) = q := Fin.ext hi1
  have hi : ix2 (⟨(i 0).val, (i 0).isLt⟩ : Fin 100000) q = i := by
    funext a
    match a with
    | ⟨0, _⟩ => rfl
    | ⟨1, _⟩ => exact Fin.ext hi1.symm
  rw [norm_pay_at]
  unfold Cert.LapNorm.normRows
  rw [hq, hx p q ⟨(i 0).val, (i 0).isLt⟩ hi0, hi, hm p ⟨(i 0).val, (i 0).isLt⟩ hi0, hv p ⟨(i 0).val, (i 0).isLt⟩ hi0, hs q, hb q]

/-- The feature block at point `t` of the second pass holds rows `2000 t, …` of the feature array. -/
theorem feature_block1 (c : Dev nD) (t : Fin cfg1.N) (p : Fin 2000) (q : Fin 128) (r : Fin 100000) (hr : r.val = t.val * 2000 + p.val) :
    (iblk1 V c 0 t : Vec Ideal S2000x128 .f32) (ix2 p q) = (V c main_arg0 : S100000x128.Idx → EReal) (ix2 r q) := by
  obtain ⟨e0, e1, -⟩ := points1 t
  show V c main_arg0 (((cfg1.win 0).blk t).view.emb (ix2 p q)) = V c main_arg0 (ix2 r q)
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * q.val = q.val; rw [e1]; omega

/-- The mean block at point `t` holds rows `2000 t, …` of the mean column. -/
theorem mean_block1 (c : Dev nD) (t : Fin cfg1.N) (p : Fin 2000) (r : Fin 100000) (hr : r.val = t.val * 2000 + p.val) :
    (iblk1 V c 1 t : Vec Ideal S2000x1 .f32) (ix2 p (0 : Fin 1)) = (V c main_v37 : S100000x1.Idx → EReal) (ix2 r (0 : Fin 1)) := by
  obtain ⟨-, -, e0, e1, -⟩ := points1 t
  show V c main_v37 (((cfg1.win 1).blk t).view.emb (ix2 p (0 : Fin 1))) = V c main_v37 (ix2 r (0 : Fin 1))
  refine congrArg _ (funext fun a => Fin.ext ?_)
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- The variance block at point `t` holds rows `2000 t, …` of the variance column. -/
theorem var_block1 (c : Dev nD) (t : Fin cfg1.N) (p : Fin 2000) (r : Fin 100000) (hr : r.val = t.val * 2000 + p.val) :
    (iblk1 V c 2 t : Vec Ideal S2000x1 .f32) (ix2 p (0 : Fin 1)) = (V c main_v55 : S100000x1.Idx → EReal) (ix2 r (0 : Fin 1)) := by
  obtain ⟨-, -, -, -, e0, e1, -⟩ := points1 t
  show V c main_v55 (((cfg1.win 2).blk t).view.emb (ix2 p (0 : Fin 1))) = V c main_v55 (ix2 r (0 : Fin 1))
  refine congrArg _ (funext fun a => Fin.ext ?_)
  match a with
  | ⟨0, _⟩ => show win1_2.index t (0 : Fin 2) * 2000 + 1 * p.val = r.val; rw [e0, hr]; omega
  | ⟨1, _⟩ => show win1_2.index t (1 : Fin 2) * 1 + 1 * 0 = 0; rw [e1]

/-- The scale block at every point is the whole scale vector. -/
theorem scale_block1 (c : Dev nD) (t : Fin cfg1.N) (q : Fin 128) :
    (iblk1 V c 3 t : Vec Ideal S128 .f32) (ix1 q) = (V c main_arg2 : S128.Idx → EReal) (ix1 q) := by
  obtain ⟨-, -, -, -, -, -, e0, -⟩ := points1 t
  show V c main_arg2 (((cfg1.win 3).blk t).view.emb (ix1 q)) = V c main_arg2 (ix1 q)
  refine congrArg _ (funext fun a => Fin.ext ?_)
  match a with
  | ⟨0, _⟩ => show win1_3.index t (0 : Fin 1) * 128 + 1 * q.val = q.val; rw [e0]; omega

/-- The offset block at every point is the whole offset vector. -/
theorem bias_block1 (c : Dev nD) (t : Fin cfg1.N) (q : Fin 128) :
    (iblk1 V c 4 t : Vec Ideal S128 .f32) (ix1 q) = (V c main_arg3 : S128.Idx → EReal) (ix1 q) := by
  obtain ⟨-, -, -, -, -, -, -, e0, -⟩ := points1 t
  show V c main_arg3 (((cfg1.win 4).blk t).view.emb (ix1 q)) = V c main_arg3 (ix1 q)
  refine congrArg _ (funext fun a => Fin.ext ?_)
  match a with
  | ⟨0, _⟩ => show win1_4.index t (0 : Fin 1) * 128 + 1 * q.val = q.val; rw [e0]; omega

/-- What point `t` writes back to the result is block `t` of the normalised feature array. -/
theorem norm_written (c : Dev nD) (t : Fin cfg1.N) :
    (dat1 V c).flushed 5 t = ((cfg1.win 5).blk t).view.read (Elt Ideal)
      (Cert.LapNorm.normRows (V c main_arg0) (V c main_v37) (V c main_v55) (V c main_arg2) (V c main_arg3)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S2000x1) hz2, View.ld_unit_zero (S := S128) hz1]
  funext j
  obtain ⟨-, -, -, -, -, -, -, -, e0, e1⟩ := points1 t
  refine norm_of_rows (V c main_arg0) (V c main_v37) (V c main_v55) (V c main_arg2) (V c main_arg3)
    (iblk1 V c 0 t) (iblk1 V c 1 t) (iblk1 V c 2 t) (iblk1 V c 3 t) (iblk1 V c 4 t) t.val
    (fun p q r hr => feature_block1 V c t p q r hr) (fun p r hr => mean_block1 V c t p r hr)
    (fun p r hr => var_block1 V c t p r hr) (fun q => scale_block1 V c t q) (fun q => bias_block1 V c t q) _ _ ?_ ?_
  · show win1_5.index t (0 : Fin 2) * 2000 + 1 * (j 0).val = t.val * 2000 + (j 0).val
    rw [e0]; omega
  · show win1_5.index t (1 : Fin 2) * 128 + 1 * (j 1).val = (j 1).val
    rw [e1]; omega

/-- An index of the result is in point `t`'s block iff each coordinate is in the block's range on its axis. -/
theorem mem_norm_block (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v56).slice (win1_5.rect t)).set ↔ _
  rw [View.set_slice_whole, Rect.mem_set_unit]
  exact Iff.rfl

/-- Row `r` of the result is written back by point `r / 2000`. -/
theorem norm_rows_covered (i : S100000x128.Idx) : ∃ t : Fin cfg1.N, (cfg1.win 5).flush t = true ∧ i ∈ ((cfg1.win 5).blk t).view.set := by
  have h0 : (i 0).val < 100000 := (i 0).isLt
  have h1 : (i 1).val < 128 := (i 1).isLt
  have hN : grid1.N = 50 := N_1
  have ht : (i 0).val / 2000 < cfg1.N := by show _ < grid1.N; rw [hN]; omega
  obtain ⟨-, -, -, -, -, -, -, -, e0, e1⟩ := points1 ⟨(i 0).val / 2000, ht⟩
  refine ⟨⟨(i 0).val / 2000, ht⟩, flush1_5 _, ?_⟩
  rw [mem_norm_block]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e1]; omega

/-- After the second pass the result holds the normalised feature array. -/
theorem final1_5 (c : Dev nD) : (dat1 (F := Ideal) V c).arrAt 5 cfg1.N
    = Cert.LapNorm.normRows (V c main_arg0) (V c main_v37) (V c main_v55) (V c main_arg2) (V c main_arg3) :=
  (dat1 V c).arrAt_eq_of_cover 5
    (Cert.LapNorm.normRows (V c main_arg0) (V c main_v37) (V c main_v55) (V c main_arg2) (V c main_arg3))
    (fun t _ => norm_written V c t) norm_rows_covered

end Cert.KernelIdeal.Blocks

end
-- ==== Proof.KernelHost.lean ====
/-
  What the kernel program's result buffer holds, as one function of the launch contents of its arguments.

  The fold through the program's four segments is read backwards from the result: the second streaming pass writes
  the normalised rows of x from the mean column and the variance column the host stretch before it computed; that
  stretch read the two columns of per-node means the first streaming pass wrote, the edge weights the first host
  stretch computed, and the edges' row and column numbers; the first pass read x. No segment writes an argument.
-/
import proofs.«175817_j26482768347668_2_alg».proof.Proof.Gen.KernelIdeal.Frame
import proofs.«175817_j26482768347668_2_alg».proof.Proof.KernelHostDefs
import proofs.«175817_j26482768347668_2_alg».proof.Proof.KernelBlocks
import Idealize.ShloMosaic.Lib.StableHlo.Run

set_option maxRecDepth 16384

noncomputable section

namespace Cert.KernelIdeal.Host

open Cert.KernelIdeal Cert.KernelIdeal.Gen Cert.KernelIdeal.HostDefs
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-! ## The first host stretch leaves the arguments alone -/

theorem W1_arg0 (c : Dev nD) : W1 m ρ c (Proc.devRef .tc main_arg0) = m ((c.tc : Thread nD τ).loc main_arg0) := by
  dsimp only [W1]; after_results_simp
theorem W1_arg4 (c : Dev nD) : W1 m ρ c (Proc.devRef .tc main_arg4) = m ((c.tc : Thread nD τ).loc main_arg4) := by
  dsimp only [W1]; after_results_simp
theorem W1_arg5 (c : Dev nD) : W1 m ρ c (Proc.devRef .tc main_arg5) = m ((c.tc : Thread nD τ).loc main_arg5) := by
  dsimp only [W1]; after_results_simp

/-! ## The first streaming pass writes the two columns of per-node means and nothing else -/

theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_v22 (c : Dev nD) : W2 m ρ c (Proc.devRef .tc main_v22) = W1 m ρ c (Proc.devRef .tc main_v22) :=
  W2_of_ne m ρ c main_v22 (by decide)

theorem W2_s1 (c : Dev nD) :
    W2 m ρ c (Proc.devRef .tc main_v23_0) = Cert.LapNorm.rowMean (m ((c.tc : Thread nD τ).loc main_arg0)) := by
  have h := W2_arr m ρ c 1
  rw [Cert.KernelIdeal.Blocks.final0_1 (V1 m ρ) c] at h
  exact h.trans (congrArg Cert.LapNorm.rowMean (W1_arg0 m ρ c))

theorem W2_s2 (c : Dev nD) :
    W2 m ρ c (Proc.devRef .tc main_v23_1) = Cert.LapNorm.rowMeanSq (m ((c.tc : Thread nD τ).loc main_arg0)) := by
  have h := W2_arr m ρ c 2
  rw [Cert.KernelIdeal.Blocks.final0_2 (V1 m ρ) c] at h
  exact h.trans (congrArg Cert.LapNorm.rowMeanSq (W1_arg0 m ρ c))

/-! ## The second host stretch: the mean and variance columns, the arguments untouched -/

theorem V3_arg0 (c : Dev nD) : V3 m ρ c main_arg0 = m ((c.tc : Thread nD τ).loc main_arg0) :=
  ((W4_arr m ρ c 0).trans (((dat1 (V3 m ρ) c).arrAt_in 0 rfl _).trans (A_eq1 (V3 m ρ) c 0))).symm.trans (W4_main_arg0 m ρ c)
theorem V3_arg2 (c : Dev nD) : V3 m ρ c main_arg2 = m ((c.tc : Thread nD τ).loc main_arg2) :=
  ((W4_arr m ρ c 3).trans (((dat1 (V3 m ρ) c).arrAt_in 3 rfl _).trans (A_eq1 (V3 m ρ) c 3))).symm.trans (W4_main_arg2 m ρ c)
theorem V3_arg3 (c : Dev nD) : V3 m ρ c main_arg3 = m ((c.tc : Thread nD τ).loc main_arg3) :=
  ((W4_arr m ρ c 4).trans (((dat1 (V3 m ρ) c).arrAt_in 4 rfl _).trans (A_eq1 (V3 m ρ) c 4))).symm.trans (W4_main_arg3 m ρ c)

theorem V3_v37 (c : Dev nD) :
    V3 m ρ c main_v37 = col1 (meanFlat (W2 m ρ c (Proc.devRef .tc main_v22)) (W2 m ρ c (Proc.devRef .tc main_v23_0))
      (W2 m ρ c (Proc.devRef .tc main_arg4)) (W2 m ρ c (Proc.devRef .tc main_arg5))) := by
  dsimp only [V3, W3]
  after_results_simp <;> rfl

theorem V3_v55 (c : Dev nD) :
    V3 m ρ c main_v55 = col1 (varFlat (W2 m ρ c (Proc.devRef .tc main_v22)) (W2 m ρ c (Proc.devRef .tc main_v23_0))
      (W2 m ρ c (Proc.devRef .tc main_v23_1)) (W2 m ρ c (Proc.devRef .tc main_arg4)) (W2 m ρ c (Proc.devRef .tc main_arg5))) := by
  dsimp only [V3, W3]
  after_results_simp <;> rfl

/-! ## The result -/

/-- The result buffer after the run: the rows of x normalised by the mean and variance columns the middle stretch
    forms from the first pass's per-node means, the first stretch's edge weights and the edges' numbers. -/
theorem result_eq (c : Dev nD) :
    W4 m ρ c (Proc.devRef .tc main_v56) =
      Cert.LapNorm.normRows (m ((c.tc : Thread nD τ).loc main_arg0))
        (col1 (meanFlat (W1 m ρ c (Proc.devRef .tc main_v22))
          (Cert.LapNorm.rowMean (m ((c.tc : Thread nD τ).loc main_arg0)))
          (m ((c.tc : Thread nD τ).loc main_arg4)) (m ((c.tc : Thread nD τ).loc main_arg5))))
        (col1 (varFlat (W1 m ρ c (Proc.devRef .tc main_v22))
          (Cert.LapNorm.rowMean (m ((c.tc : Thread nD τ).loc main_arg0)))
          (Cert.LapNorm.rowMeanSq (m ((c.tc : Thread nD τ).loc main_arg0)))
          (m ((c.tc : Thread nD τ).loc main_arg4)) (m ((c.tc : Thread nD τ).loc main_arg5))))
        (m ((c.tc : Thread nD τ).loc main_arg2)) (m ((c.tc : Thread nD τ).loc main_arg3)) := by
  have h := W4_arr m ρ c 5
  rw [Cert.KernelIdeal.Blocks.final1_5 (V3 m ρ) c, V3_arg0, V3_arg2, V3_arg3, V3_v37, V3_v55, W2_v22, W2_s1, W2_s2,
    W2_arg4, W2_arg5] at h
  exact h

end Cert.KernelIdeal.Host

end
-- ==== Proof.Spec.lean ====
/-
  A graph normalisation written two ways, and why the two agree.

  Nodes carry feature rows `x n k`; edges carry a value `ev e`, land on a node (`lands e n`) and read a source node
  (`src e`, and `srcR e` for the factor looked up by the edge's own row number). The degree of a node is the sum of
  the values of the edges landing on it, its factor a power of the degree plus a small constant, and the weight of an
  edge is the product of its value with the two factors.

  The first way sums weighted feature rows over the edges landing on a node and takes the mean of the summed row; it
  subtracts that mean, sums weighted squared rows, takes the mean again for a variance, and divides by the square root
  of the variance plus the constant. The second way takes, per node, the mean of the row and of its square first, sums
  the weighted scalars over edges, rebuilds the variance from  s2 - 2 m s1 + m^2, and multiplies by the reciprocal
  square root.

  When the features and the edge values are real numbers every quantity is a real number, a mean over the row commutes
  with a weighted sum over edges, and  mean_k (x k - m)^2 = mean_k x k^2 - 2 m mean_k x k + m^2 ; where the variance
  plus the constant is positive, dividing by its root is multiplying by its reciprocal root. That is the theorem
  `outK_eq_outR`.
-/
import Idealize.ShloMosaic.PureOps.Ideal.Laws

noncomputable section

namespace Cert.LapNorm

open Idealize.ShloMosaic
open scoped BigOperators

variable {ν κ ε : Type} [Fintype ν] [Fintype κ] [Fintype ε]
variable (lands : ε → ν → Prop) [∀ e n, Decidable (lands e n)] (src srcR : ε → ν)
variable (x : ν → κ → EReal) (ev : ε → EReal) (scale bias : κ → EReal) (eps half c128 two : EReal)

/-! ## The shared part: degrees, factors, weights -/

/-- The degree of a node: the sum of the values of the edges that land on it. -/
def deg (n : ν) : EReal := ∑ e ∈ Finset.univ.filter (fun e => lands e n), ev e
/-- The factor of a node: the degree plus the constant, to the given power. -/
def dis (n : ν) : EReal := Ideal.pow (deg lands ev n + eps) half
/-- The weight of an edge. -/
def wgt (e : ε) : EReal := (dis lands ev eps half (srcR e) * ev e) * dis lands ev eps half (src e)

/-! ## The first way -/

def aggR (n : ν) (k : κ) : EReal :=
  ∑ e ∈ Finset.univ.filter (fun e => lands e n), wgt lands src srcR ev eps half e * x (src e) k
def meanR (n : ν) : EReal := Ideal.div (∑ k, aggR lands src srcR x ev eps half n k) c128
def xcR (n : ν) (k : κ) : EReal := x n k - meanR lands src srcR x ev eps half c128 n
def agg2R (n : ν) (k : κ) : EReal :=
  ∑ e ∈ Finset.univ.filter (fun e => lands e n), wgt lands src srcR ev eps half e *
    (xcR lands src srcR x ev eps half c128 (src e) k * xcR lands src srcR x ev eps half c128 (src e) k)
def varR (n : ν) : EReal := Ideal.div (∑ k, agg2R lands src srcR x ev eps half c128 n k) c128
def outR (n : ν) (k : κ) : EReal :=
  Ideal.div (xcR lands src srcR x ev eps half c128 n k) (Ideal.sqrt (varR lands src srcR x ev eps half c128 n + eps))
    * scale k + bias k

/-! ## The second way -/

def s1 (n : ν) : EReal := Ideal.div (∑ k, x n k) c128
def s2 (n : ν) : EReal := Ideal.div (∑ k, x n k * x n k) c128
def meanK (n : ν) : EReal :=
  ∑ e ∈ Finset.univ.filter (fun e => lands e n), wgt lands src srcR ev eps half e * s1 x c128 (src e)
def uK (n : ν) : EReal :=
  (s2 x c128 n - (two * meanK lands src srcR x ev eps half c128 n) * s1 x c128 n)
    + meanK lands src srcR x ev eps half c128 n * meanK lands src srcR x ev eps half c128 n
def varK (n : ν) : EReal :=
  ∑ e ∈ Finset.univ.filter (fun e => lands e n), wgt lands src srcR ev eps half e *
    uK lands src srcR x ev eps half c128 two (src e)
def outK (n : ν) (k : κ) : EReal :=
  ((x n k - meanK lands src srcR x ev eps half c128 n)
      * Ideal.rsqrt (varK lands src srcR x ev eps half c128 two n + eps)) * scale k + bias k

/-! ## The same quantities over the reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Real

variable (X : ν → κ → ℝ) (EV : ε → ℝ) (EPS HALF : ℝ)

def degℝ (n : ν) : ℝ := ∑ e ∈ Finset.univ.filter (fun e => lands e n), EV e
def disℝ (n : ν) : ℝ := Real.rpow (degℝ lands EV n + EPS) HALF
def wgtℝ (e : ε) : ℝ := (disℝ lands EV EPS HALF (srcR e) * EV e) * disℝ lands EV EPS HALF (src e)
def s1ℝ (n : ν) : ℝ := (∑ k, X n k) * (1 / 128)
def s2ℝ (n : ν) : ℝ := (∑ k, X n k * X n k) * (1 / 128)
def meanℝ (n : ν) : ℝ :=
  ∑ e ∈ Finset.univ.filter (fun e => lands e n), wgtℝ lands src srcR EV EPS HALF e * s1ℝ X (src e)
def uℝ (n : ν) : ℝ :=
  (s2ℝ X n - (2 * meanℝ lands src srcR X EV EPS HALF n) * s1ℝ X n)
    + meanℝ lands src srcR X EV EPS HALF n * meanℝ lands src srcR X EV EPS HALF n
def varℝ (n : ν) : ℝ :=
  ∑ e ∈ Finset.univ.filter (fun e => lands e n), wgtℝ lands src srcR EV EPS HALF e *
    uℝ lands src srcR X EV EPS HALF (src e)

end Real

end Cert.LapNorm

end
-- ==== Proof.LibSegmentSum.lean ====
/-
  The host's accumulating scatter, read at an index given by coordinates, at the ideal values, for the dimension
  numbers of a SEGMENT SUM: the scatter indices are a column of N row numbers (shape [N, 1], the index vector along
  the second axis), update row i is added into operand row idx[i] (the scatter axis goes to operand axis 0, which is
  the one inserted window axis), and the update's remaining axis, if any, runs along the operand's columns. An element
  of the result is then the operand's element plus the sum of the update elements in the same column whose row number
  is that element's row: a sum over a filter of Fin N. A row number read signed that is negative or not below the
  operand's row count lands outside and adds nothing, which the filter says by itself, the wanted row being a row.
-/
import Idealize.ShloMosaic.Lib.ValueIdx
import Idealize.ShloMosaic.PureOps.Ideal.Laws

noncomputable section

namespace Cert.SegmentSum

open Idealize.ShloMosaic Idealize.ShloMosaic.ValueIdx
open scoped BigOperators

/-! ## Updates of rows: operand [S, C], updates [N, C] -/

/-- Update element (i, b) lands on operand element (s, c) exactly when row number i, read signed, is s and b = c:
    the start is (row number, 0) and the window coordinate is (0, b), so the landing place is (row number, b), inside
    the operand exactly when the row number is one of its rows. -/
theorem resultIdx?_rows_eq_some_iff {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (idx : IVec ⟨2, ![N, 1]⟩ w) (i : Fin N) (b : Fin C) (s : Fin S) (c : Fin C) :
    d.resultIdx? (ix2 i b) idx = some (ix2 s c) ↔ (idx (ix2 i (0 : Fin 1))).toInt = (s.val : Int) ∧ b = c := by
  unfold ScatterDims.resultIdx?
  constructor
  · intro h
    split_ifs at h with hr
    have h' := Option.some.inj h
    have h0 : (d.start (ix2 i b) idx (0 : Fin 2) + (d.window (ix2 i b) (0 : Fin 2) : Int)).toNat = s.val :=
      congrArg (fun f : (⟨2, ![S, C]⟩ : Shape).Idx => (f (0 : Fin 2)).val) h'
    have h1 : (d.start (ix2 i b) idx (1 : Fin 2) + (d.window (ix2 i b) (1 : Fin 2) : Int)).toNat = c.val :=
      congrArg (fun f : (⟨2, ![S, C]⟩ : Shape).Idx => (f (1 : Fin 2)).val) h'
    have hr0 := (hr (0 : Fin 2)).1
    rw [hs0, hw0] at h0 hr0
    rw [hs1, hw1] at h1
    refine ⟨by omega, Fin.ext (by omega)⟩
  · rintro ⟨hrow, rfl⟩
    have hr : ∀ a : Fin 2, 0 ≤ d.start (ix2 i b) idx a + (d.window (ix2 i b) a : Int) ∧
        d.start (ix2 i b) idx a + (d.window (ix2 i b) a : Int) < ((⟨2, ![S, C]⟩ : Shape).size a : Int) := by
      intro a
      match a with
      | ⟨0, _⟩ =>
        have e1 := hs0 i b idx
        have e2 := hw0 i b
        have hS : (s.val : Int) < (S : Int) := by exact_mod_cast s.isLt
        show 0 ≤ d.start (ix2 i b) idx (0 : Fin 2) + (d.window (ix2 i b) (0 : Fin 2) : Int) ∧
          d.start (ix2 i b) idx (0 : Fin 2) + (d.window (ix2 i b) (0 : Fin 2) : Int) < (S : Int)
        rw [e1, e2]; omega
      | ⟨1, _⟩ =>
        have e1 := hs1 i b idx
        have e2 := hw1 i b
        have hC : (b.val : Int) < (C : Int) := by exact_mod_cast b.isLt
        show 0 ≤ d.start (ix2 i b) idx (1 : Fin 2) + (d.window (ix2 i b) (1 : Fin 2) : Int) ∧
          d.start (ix2 i b) idx (1 : Fin 2) + (d.window (ix2 i b) (1 : Fin 2) : Int) < (C : Int)
        rw [e1, e2]; omega
    rw [dif_pos hr]
    congr 1
    funext a
    apply Fin.ext
    match a with
    | ⟨0, _⟩ =>
      show (d.start (ix2 i b) idx (0 : Fin 2) + (d.window (ix2 i b) (0 : Fin 2) : Int)).toNat = s.val
      rw [hs0, hw0]; omega
    | ⟨1, _⟩ =>
      show (d.start (ix2 i b) idx (1 : Fin 2) + (d.window (ix2 i b) (1 : Fin 2) : Int)).toNat = b.val
      rw [hs1, hw1]; omega

/-- The accumulating scatter of N update rows into an operand of S rows, at row s and column c: the operand's element
    plus the sum, over the update rows i whose row number (read signed) is s, of the update at (i, c). The hypotheses say
    what the dimension numbers mean: the start is (row number, 0), the window coordinate is (0, update column). The sum
    over the update indices that land on (s, c) is split by coordinates; the column must be c and the row's number s. -/
theorem scatterAdd_rows_apply {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (x : FVec Ideal ⟨2, ![S, C]⟩ .f32) (idx : IVec ⟨2, ![N, 1]⟩ w) (upd : FVec Ideal ⟨2, ![N, C]⟩ .f32)
    (s : Fin S) (c : Fin C) :
    Host.scatterAdd d x idx upd (ix2 s c) = x (ix2 s c) +
      ∑ i ∈ Finset.univ.filter (fun i : Fin N => (idx (ix2 i (0 : Fin 1))).toInt = (s.val : Int)), upd (ix2 i c) := by
  show x (ix2 s c) + ∑ j ∈ Finset.univ.filter (fun j => d.resultIdx? j idx = some (ix2 s c)), upd j = _
  congr 1
  rw [Finset.sum_filter, Finset.sum_filter, sum_idx2]
  refine Finset.sum_congr rfl fun i _ => ?_
  simp only [resultIdx?_rows_eq_some_iff d hs0 hs1 hw0 hw1]
  by_cases h : (idx (ix2 i (0 : Fin 1))).toInt = (s.val : Int)
  · simp only [h, true_and, if_true]
    rw [Finset.sum_ite_eq' Finset.univ c (fun b => upd (ix2 i b))]
    simp
  · simp only [h, false_and, if_false, Finset.sum_const_zero]

/-! ## Updates of single elements: operand [S], updates [N] -/

/-- A rank-1 index set is its one coordinate range … -/
def idxEquiv1 {n : ℕ} : (⟨1, ![n]⟩ : Shape).Idx ≃ Fin n where
  toFun j := j 0
  invFun i := ix1 i
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- Update element i lands on operand element s exactly when row number i, read signed, is s: the start is the row
    number and there is no window, so the landing place is the row number, inside the operand exactly when it is one of
    its elements. -/
theorem resultIdx?_vec_eq_some_iff {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (idx : IVec ⟨2, ![N, 1]⟩ w) (i : Fin N) (s : Fin S) :
    d.resultIdx? (ix1 i) idx = some (ix1 s) ↔ (idx (ix2 i (0 : Fin 1))).toInt = (s.val : Int) := by
  unfold ScatterDims.resultIdx?
  constructor
  · intro h
    split_ifs at h with hr
    have h' := Option.some.inj h
    have h0 : (d.start (ix1 i) idx (0 : Fin 1) + (d.window (ix1 i) (0 : Fin 1) : Int)).toNat = s.val :=
      congrArg (fun f : (⟨1, ![S]⟩ : Shape).Idx => (f (0 : Fin 1)).val) h'
    have hr0 := (hr (0 : Fin 1)).1
    rw [hs0, hw0] at h0 hr0
    omega
  · intro hrow
    have hr : ∀ a : Fin 1, 0 ≤ d.start (ix1 i) idx a + (d.window (ix1 i) a : Int) ∧
        d.start (ix1 i) idx a + (d.window (ix1 i) a : Int) < ((⟨1, ![S]⟩ : Shape).size a : Int) := by
      intro a
      match a with
      | ⟨0, _⟩ =>
        have e1 := hs0 i idx
        have e2 := hw0 i
        have hS : (s.val : Int) < (S : Int) := by exact_mod_cast s.isLt
        show 0 ≤ d.start (ix1 i) idx (0 : Fin 1) + (d.window (ix1 i) (0 : Fin 1) : Int) ∧
          d.start (ix1 i) idx (0 : Fin 1) + (d.window (ix1 i) (0 : Fin 1) : Int) < (S : Int)
        rw [e1, e2]; omega
    rw [dif_pos hr]
    congr 1
    funext a
    apply Fin.ext
    match a with
    | ⟨0, _⟩ =>
      show (d.start (ix1 i) idx (0 : Fin 1) + (d.window (ix1 i) (0 : Fin 1) : Int)).toNat = s.val
      rw [hs0, hw0]; omega

/-- The accumulating scatter of N update elements into an operand of S elements, at element s: the operand's element
    plus the sum, over the update elements i whose row number (read signed) is s, of the update at i. The hypotheses say
    what the dimension numbers mean: the start is the row number, and there is no window. -/
theorem scatterAdd_vec_apply {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (x : FVec Ideal ⟨1, ![S]⟩ .f32) (idx : IVec ⟨2, ![N, 1]⟩ w) (upd : FVec Ideal ⟨1, ![N]⟩ .f32) (s : Fin S) :
    Host.scatterAdd d x idx upd (ix1 s) = x (ix1 s) +
      ∑ i ∈ Finset.univ.filter (fun i : Fin N => (idx (ix2 i (0 : Fin 1))).toInt = (s.val : Int)), upd (ix1 i) := by
  show x (ix1 s) + ∑ j ∈ Finset.univ.filter (fun j => d.resultIdx? j idx = some (ix1 s)), upd j = _
  congr 1
  rw [Finset.sum_filter, Finset.sum_filter, sum_idx1]
  refine Finset.sum_congr rfl fun i _ => ?_
  simp only [resultIdx?_vec_eq_some_iff d hs0 hw0]

end Cert.SegmentSum
-- ==== Proof.LibSegmentDims.lean ====
/-
  The dimension numbers of a segment sum, and what they mean: scatter indices [N, 1] with the index vector along the
  second axis, the one index component addressing operand axis 0, which is also the one inserted window axis; for a
  matrix of updates [N, C] the update's second axis is its window axis and runs along the operand's columns, for a
  vector of updates [N] there is no window. So update element (i, b) starts at (row number i, 0) with window coordinate
  (0, b), and update element i of a vector starts at row number i with no window.
-/
import Idealize.ShloMosaic.Lib.ValueIdx

noncomputable section

namespace Cert.SegmentDims

open Idealize.ShloMosaic Idealize.ShloMosaic.ValueIdx

/-! ## Rows: operand [S, C], indices [N, 1], updates [N, C] -/

abbrev rowsDims (S C N : Nat)
    (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

variable {S C N w : Nat}

theorem rows_start0 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (0 : Fin 2) = (idx (ix2 i (0 : Fin 1))).toInt := by
  unfold ScatterDims.start
  rw [dif_pos (show (0 : Fin 2) ∈ (rowsDims S C N wf).scatterDimsToOperandDims from List.mem_singleton.mpr rfl)]
  have hsi : (rowsDims S C N wf).siIdx (ix2 i b) ⟨List.idxOf (0 : Fin 2) (rowsDims S C N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem rows_start1 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (1 : Fin 2) = 0 := by
  unfold ScatterDims.start
  rw [dif_neg (show (1 : Fin 2) ∉ (rowsDims S C N wf).scatterDimsToOperandDims from
    fun h => absurd (show (1 : Nat) = 0 from congrArg Fin.val (List.mem_singleton.mp h)) (by decide))]

theorem rows_window0 (wf : ScatterDims.WF ⟨2, ![S, C]⟩ ⟨2, ![N, 1]⟩ ⟨2, ![N, C]⟩ [1] [0] [0] 1)
    (i : Fin N) (b : Fin C) : (rowsDims S C N wf).window (ix2 i b) (0 : Fin 2) = 0 := by
  unfold ScatterDims.window
  rw [dif_neg]
  intro h
  have : (0 : Fin 2) ∉ (rowsDims S C N wf).insertedWindowDims := by
    simpa [ScatterDims.sKept, Shape.kept, List.mem_filter] using h
  exact this (List.mem_singleton.mpr rfl)

theorem rows_window1 (wf : ScatterDims.WF ⟨2, ![S, C]⟩ ⟨2, ![N, 1]⟩ ⟨2, ![N, C]⟩ [1] [0] [0] 1)
    (i : Fin N) (b : Fin C) : (rowsDims S C N wf).window (ix2 i b) (1 : Fin 2) = b.val := by
  unfold ScatterDims.window
  have h1 : (1 : Fin 2) ∈ (rowsDims S C N wf).sKept := by
    simp [ScatterDims.sKept, Shape.kept, List.mem_filter, List.mem_finRange]
  rw [dif_pos h1]
  rfl

/-! ## Elements: operand [S], indices [N, 1], updates [N] -/

abbrev vecDims (S N : Nat) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

theorem vec_start0 (wf : ScatterDims.WF ⟨1, ![S]⟩ ⟨2, ![N, 1]⟩ ⟨1, ![N]⟩ [] [0] [0] 1)
    (i : Fin N) (idx : IVec ⟨2, ![N, 1]⟩ w) :
    (vecDims S N wf).start (ix1 i) idx (0 : Fin 1) = (idx (ix2 i (0 : Fin 1))).toInt := by
  unfold ScatterDims.start
  rw [dif_pos (show (0 : Fin 1) ∈ (vecDims S N wf).scatterDimsToOperandDims from List.mem_singleton.mpr rfl)]
  have hsi : (vecDims S N wf).siIdx (ix1 i) ⟨List.idxOf (0 : Fin 1) (vecDims S N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem vec_window0 (wf : ScatterDims.WF ⟨1, ![S]⟩ ⟨2, ![N, 1]⟩ ⟨1, ![N]⟩ [] [0] [0] 1) (i : Fin N) :
    (vecDims S N wf).window (ix1 i) (0 : Fin 1) = 0 := by
  unfold ScatterDims.window
  rw [dif_neg]
  intro h
  have : (0 : Fin 1) ∉ (vecDims S N wf).insertedWindowDims := by
    simpa [ScatterDims.sKept, Shape.kept, List.mem_filter] using h
  exact this (List.mem_singleton.mpr rfl)

end Cert.SegmentDims
-- ==== Proof.KernelHostRead.lean ====
/-
  The host operations between the two streaming passes, read at an index. A column handed on from a vector reads the
  vector at its row; a column read back as a vector reads the column at that row; the sum over the edges landing on a
  node is a sum over the edges whose row number is that node; a lookup by an edge's column number reads the node that
  number names once adjusted and clamped. So, the edge values w being the weights, the per-node mean is the weighted
  sum of the looked-up row means, the per-node scalar is  s2 − 2 m s1 + m², and the per-node variance is the weighted
  sum of the looked-up scalars: the second way of the abstract graph normalisation.
-/
import proofs.«175817_j26482768347668_2_alg».proof.Proof.KernelHostDefs
import proofs.«175817_j26482768347668_2_alg».proof.Proof.Spec
import proofs.«175817_j26482768347668_2_alg».proof.Proof.Words
import proofs.«175817_j26482768347668_2_alg».proof.Proof.LibSegmentSum
import proofs.«175817_j26482768347668_2_alg».proof.Proof.LibSegmentDims
import proofs.«175817_j26482768347668_2_alg».proof.Proof.LibGatherRows
import Idealize.ShloMosaic.Lib.Pipeline.Value
import Idealize.ShloMosaic.Lib.ValueIdx
import Idealize.ShloMosaic.PureOps.Ideal.Laws

noncomputable section

namespace Cert.KernelIdeal.HostRead

open Cert.KernelIdeal Cert.KernelIdeal.Facts₀ Cert.KernelIdeal.Facts Cert.KernelIdeal.HostDefs
open Idealize.ShloMosaic Idealize.ShloMosaic.ValueIdx
open scoped BigOperators

variable [Cert.KernelIdeal.Facts]

local notation "cEps" => Ideal.ofBits FTy.f32 0x358637BD#32
local notation "cHalf" => Ideal.ofBits FTy.f32 0xBF000000#32
local notation "c128" => Ideal.ofBits FTy.f32 0x43000000#32
local notation "cTwo" => Ideal.ofBits FTy.f32 0x40000000#32

/-! ## The layout operations at an index -/

/-- A column read as a vector: element p is the column's row p. -/
theorem flat_apply (s : FVec Ideal S100000x1 .f32) (p : Fin 100000) : flat s (ix1 p) = s (ix2 p (0 : Fin 1)) := by
  unfold flat
  exact shapeCast_apply s shapeCasts_S100000x1_S100000 (ix1 p) (ix2 p (0 : Fin 1)) (by
    rw [Shape.rowMajor_val_two, Shape.rowMajor_val_one]
    show p.val * 1 + 0 = p.val
    omega)

/-- A vector handed on as a column: row n is the vector's element n. -/
theorem col1_apply (v : FVec Ideal S100000 .f32) (n : Fin 100000) : col1 v (ix2 n (0 : Fin 1)) = v (ix1 n) := by
  unfold col1
  exact broadcastInDim_apply _ bcast_S100000_S100000x1_0 v (ix2 n (0 : Fin 1)) (ix1 n) (fun a => match a with
    | ⟨0, _⟩ => by show n.val = if (100000 : Nat) = 1 then 0 else n.val; rw [if_neg (by decide)])

/-- The row numbers as a column: row e is edge e's row number. -/
theorem rowIdx_apply (row : IVec S1600000 32) (e : Fin 1600000) : rowIdx row (ix2 e (0 : Fin 1)) = row (ix1 e) := by
  unfold rowIdx
  exact broadcastInDim_apply _ bcast_S1600000_S1600000x1_0 row (ix2 e (0 : Fin 1)) (ix1 e) (fun a => match a with
    | ⟨0, _⟩ => by show e.val = if (1600000 : Nat) = 1 then 0 else e.val; rw [if_neg (by decide)])

/-- A constant word spread over the edges. -/
theorem splatI_apply (c : BitVec 32) (i : S1600000.Idx) :
    broadcastInDim S1600000 ![] bcast_S_S1600000 (constantI S_ 32 c) i = c :=
  (broadcastInDim_apply _ bcast_S_S1600000 (constantI S_ 32 c) i ix0 (fun a => a.elim0)).trans rfl

/-- A constant spread over the nodes. -/
theorem splatF_apply (b : BitVec 32) (i : S100000.Idx) :
    broadcastInDim S100000 ![] bcast_S_S100000 (constant (F := Ideal) S_ .f32 b) i = Ideal.ofBits .f32 b :=
  (broadcastInDim_apply _ bcast_S_S100000 (constant (F := Ideal) S_ .f32 b) i ix0 (fun a => a.elim0)).trans rfl

/-- The adjusted numbers as a column: row e is edge e's number, moved up by the node count when negative. -/
theorem colIdx_apply (col : IVec S1600000 32) (e : Fin 1600000) :
    colIdx col (ix2 e (0 : Fin 1)) = Cert.LapNorm.wrapW (col (ix1 e)) := by
  unfold colIdx
  rw [broadcastInDim_apply _ bcast_S1600000_S1600000x1_0 _ (ix2 e (0 : Fin 1)) (ix1 e) (fun a => match a with
    | ⟨0, _⟩ => by show e.val = if (1600000 : Nat) = 1 then 0 else e.val; rw [if_neg (by decide)])]
  show Scalar.select (IntOp.cmpi .slt (col (ix1 e)) (broadcastInDim S1600000 ![] bcast_S_S1600000 (constantI S_ 32 0#32) (ix1 e)))
      (IntOp.addi (col (ix1 e)) (broadcastInDim S1600000 ![] bcast_S_S1600000 (constantI S_ 32 100000#32) (ix1 e))) (col (ix1 e)) = _
  rw [splatI_apply, splatI_apply]
  rfl

/-! ## The segment sum and the lookup at an index -/

/-- The segment sum at node n: the sum of the per-edge values over the edges whose row number is n. -/
theorem segSum_apply (row : IVec S1600000 32) (upd : FVec Ideal S1600000 .f32) (n : Fin 100000) :
    segSum row upd (ix1 n)
      = ∑ e ∈ Finset.univ.filter (fun e : Fin 1600000 => Cert.LapNorm.landsW row e n), upd (ix1 e) := by
  unfold segSum
  have hd : scatter_S100000_S1600000x1_S1600000_n_0_0_1
      = Cert.SegmentDims.vecDims 100000 1600000 scatter_S100000_S1600000x1_S1600000_n_0_0_1_wf := rfl
  rw [hd, Cert.SegmentSum.scatterAdd_vec_apply _ (Cert.SegmentDims.vec_start0 _) (Cert.SegmentDims.vec_window0 _),
    splatF_apply, Ideal.ofBits_zero_f32, zero_add]
  refine Finset.sum_congr (Finset.filter_congr fun e _ => ?_) (fun e _ => rfl)
  rw [rowIdx_apply]
  rfl

/-- The lookup at edge e: the per-node value at the node the edge's number names. -/
theorem lookup_apply (v : FVec Ideal S100000 .f32) (col : IVec S1600000 32) (e : Fin 1600000) :
    lookup v col (ix1 e) = v (ix1 (Cert.LapNorm.srcW col e)) := by
  unfold lookup
  have hd : gather_S100000_S1600000x1_S1600000_n_0_n_n_0_1_1
      = Cert.GatherRows.vecDims 100000 1600000 gather_S100000_S1600000x1_S1600000_n_0_n_n_0_1_1_wf := rfl
  rw [hd, Cert.GatherRows.gather_vec_apply (by norm_num : 0 < 100000), colIdx_apply]
  rfl

/-! ## The row means as the per-node scalars -/

theorem rowMean_apply (x : FVec Ideal S100000x128 .f32) (p : Fin 100000) :
    Cert.LapNorm.rowMean x (ix2 p (0 : Fin 1)) = Cert.LapNorm.s1 (fun n k => x (ix2 n k)) c128 p := rfl

theorem rowMeanSq_apply (x : FVec Ideal S100000x128 .f32) (p : Fin 100000) :
    Cert.LapNorm.rowMeanSq x (ix2 p (0 : Fin 1)) = Cert.LapNorm.s2 (fun n k => x (ix2 n k)) c128 p := rfl

/-! ## The mean, the scalar, the variance -/

section Stages

variable (x : FVec Ideal S100000x128 .f32) (ev w : FVec Ideal S1600000 .f32) (row col : IVec S1600000 32)
  (hw : ∀ e : Fin 1600000, w (ix1 e) = Cert.LapNorm.wgt (Cert.LapNorm.landsW row) (Cert.LapNorm.srcW col)
    (Cert.LapNorm.srcW row) (fun e => ev (ix1 e)) cEps cHalf e)
include hw

/-- The per-node mean: the weighted sum, over the edges landing on the node, of the looked-up row means. -/
theorem meanFlat_apply (p : Fin 100000) :
    meanFlat w (Cert.LapNorm.rowMean x) row col (ix1 p)
      = Cert.LapNorm.meanK (Cert.LapNorm.landsW row) (Cert.LapNorm.srcW col) (Cert.LapNorm.srcW row)
          (fun n k => x (ix2 n k)) (fun e => ev (ix1 e)) cEps cHalf c128 p := by
  unfold meanFlat
  rw [segSum_apply]
  unfold Cert.LapNorm.meanK
  refine Finset.sum_congr rfl (fun e _ => ?_)
  rw [mulf_apply, lookup_apply, flat_apply, hw, rowMean_apply]

/-- The per-node scalar  s2 − 2 m s1 + m². -/
theorem uFlat_apply (p : Fin 100000) :
    uFlat w (Cert.LapNorm.rowMean x) (Cert.LapNorm.rowMeanSq x) row col (ix1 p)
      = Cert.LapNorm.uK (Cert.LapNorm.landsW row) (Cert.LapNorm.srcW col) (Cert.LapNorm.srcW row)
          (fun n k => x (ix2 n k)) (fun e => ev (ix1 e)) cEps cHalf c128 cTwo p := by
  unfold uFlat Cert.LapNorm.uK
  rw [addf_apply, subf_apply, mulf_apply, mulf_apply, mulf_apply, splatF_apply, flat_apply, flat_apply,
    meanFlat_apply x ev w row col hw, rowMean_apply, rowMeanSq_apply]

/-- The per-node variance: the weighted sum, over the edges landing on the node, of the looked-up scalars. -/
theorem varFlat_apply (p : Fin 100000) :
    varFlat w (Cert.LapNorm.rowMean x) (Cert.LapNorm.rowMeanSq x) row col (ix1 p)
      = Cert.LapNorm.varK (Cert.LapNorm.landsW row) (Cert.LapNorm.srcW col) (Cert.LapNorm.srcW row)
          (fun n k => x (ix2 n k)) (fun e => ev (ix1 e)) cEps cHalf c128 cTwo p := by
  unfold varFlat
  rw [segSum_apply]
  unfold Cert.LapNorm.varK
  refine Finset.sum_congr rfl (fun e _ => ?_)
  rw [mulf_apply, lookup_apply, uFlat_apply x ev w row col hw, hw]

end Stages

/-- The mean column at node n. -/
theorem meanCol_apply (x : FVec Ideal S100000x128 .f32) (ev w : FVec Ideal S1600000 .f32) (row col : IVec S1600000 32)
    (hw : ∀ e : Fin 1600000, w (ix1 e) = Cert.LapNorm.wgt (Cert.LapNorm.landsW row) (Cert.LapNorm.srcW col)
      (Cert.LapNorm.srcW row) (fun e => ev (ix1 e)) (Ideal.ofBits .f32 0x358637BD#32) (Ideal.ofBits .f32 0xBF000000#32) e)
    (n : Fin 100000) :
    col1 (meanFlat w (Cert.LapNorm.rowMean x) row col) (ix2 n (0 : Fin 1))
      = Cert.LapNorm.meanK (Cert.LapNorm.landsW row) (Cert.LapNorm.srcW col) (Cert.LapNorm.srcW row)
          (fun n k => x (ix2 n k)) (fun e => ev (ix1 e))
          (Ideal.ofBits .f32 0x358637BD#32) (Ideal.ofBits .f32 0xBF000000#32) (Ideal.ofBits .f32 0x43000000#32) n := by
  rw [col1_apply, meanFlat_apply x ev w row col hw]

/-- The variance column at node n. -/
theorem varCol_apply (x : FVec Ideal S100000x128 .f32) (ev w : FVec Ideal S1600000 .f32) (row col : IVec S1600000 32)
    (hw : ∀ e : Fin 1600000, w (ix1 e) = Cert.LapNorm.wgt (Cert.LapNorm.landsW row) (Cert.LapNorm.srcW col)
      (Cert.LapNorm.srcW row) (fun e => ev (ix1 e)) (Ideal.ofBits .f32 0x358637BD#32) (Ideal.ofBits .f32 0xBF000000#32) e)
    (n : Fin 100000) :
    col1 (varFlat w (Cert.LapNorm.rowMean x) (Cert.LapNorm.rowMeanSq x) row col) (ix2 n (0 : Fin 1))
      = Cert.LapNorm.varK (Cert.LapNorm.landsW row) (Cert.LapNorm.srcW col) (Cert.LapNorm.srcW row)
          (fun n k => x (ix2 n k)) (fun e => ev (ix1 e))
          (Ideal.ofBits .f32 0x358637BD#32) (Ideal.ofBits .f32 0xBF000000#32) (Ideal.ofBits .f32 0x43000000#32)
          (Ideal.ofBits .f32 0x40000000#32) n := by
  rw [col1_apply, varFlat_apply x ev w row col hw]

end Cert.KernelIdeal.HostRead

end
-- ==== Proof.RefRead.lean ====
/-
  The reference computation read at an index. Each stage of the reference program is a function of the inputs; read at
  explicit coordinates it is the matching quantity of the abstract graph normalisation: the degree of a node is the sum
  of the values of the edges whose row number is that node, the factor a power of the degree plus a constant, an edge's
  weight the product of its value with the factors looked up by its row number and by its column number, the
  aggregated row the weighted sum of the looked-up feature rows over the edges landing on the node, and so on up to
  the normalised output.
-/
import proofs.«175817_j26482768347668_2_alg».proof.Proof.Gen.ReferenceIdeal.Read
import proofs.«175817_j26482768347668_2_alg».proof.Proof.LibSegmentSum
import proofs.«175817_j26482768347668_2_alg».proof.Proof.LibSegmentDims
import proofs.«175817_j26482768347668_2_alg».proof.Proof.LibGatherRows
import proofs.«175817_j26482768347668_2_alg».proof.Proof.Spec
import proofs.«175817_j26482768347668_2_alg».proof.Proof.Words

noncomputable section

namespace Cert.ReferenceIdeal.RefRead

open Cert.ReferenceIdeal Cert.ReferenceIdeal.Gen Cert.ReferenceIdeal.Read Idealize.ShloMosaic Idealize.ShloMosaic.ValueIdx
open scoped BigOperators

/-! ## Index bookkeeping: a column index read back as its row coordinate, a broadcast column, a reduced row -/

theorem col_v1 (e : Fin 1600000) : idx_main_v1 (ix2 e (0 : Fin 1)) = ix1 e := by
  funext a; match a with | ⟨0, _⟩ => rfl
theorem col_v12 (e : Fin 1600000) : idx_main_v12 (ix2 e (0 : Fin 1)) = ix1 e := by
  funext a; match a with | ⟨0, _⟩ => rfl
theorem col_v20 (e : Fin 1600000) : idx_main_v20 (ix2 e (0 : Fin 1)) = ix1 e := by
  funext a; match a with | ⟨0, _⟩ => rfl
theorem col_v23 (e : Fin 1600000) : idx_main_v23 (ix2 e (0 : Fin 1)) = ix1 e := by
  funext a; match a with | ⟨0, _⟩ => rfl
theorem col_v29 (e : Fin 1600000) : idx_main_v29 (ix2 e (0 : Fin 1)) = ix1 e := by
  funext a; match a with | ⟨0, _⟩ => rfl
theorem col_v34 (e : Fin 1600000) : idx_main_v34 (ix2 e (0 : Fin 1)) = ix1 e := by
  funext a; match a with | ⟨0, _⟩ => rfl
theorem col_v42 (e : Fin 1600000) : idx_main_v42 (ix2 e (0 : Fin 1)) = ix1 e := by
  funext a; match a with | ⟨0, _⟩ => rfl
theorem col_v48 (e : Fin 1600000) : idx_main_v48 (ix2 e (0 : Fin 1)) = ix1 e := by
  funext a; match a with | ⟨0, _⟩ => rfl
theorem col_v54 (e : Fin 1600000) : idx_main_v54 (ix2 e (0 : Fin 1)) = ix1 e := by
  funext a; match a with | ⟨0, _⟩ => rfl
theorem col_v37 (n : Fin 100000) : idx_main_v37 (ix2 n (0 : Fin 1)) = ix1 n := by
  funext a; match a with | ⟨0, _⟩ => rfl
theorem col_v57 (n : Fin 100000) : idx_main_v57 (ix2 n (0 : Fin 1)) = ix1 n := by
  funext a; match a with | ⟨0, _⟩ => rfl
theorem bc_v31 (e : Fin 1600000) (k : Fin 128) : idx_main_v31 (ix2 e k) = ix2 e (0 : Fin 1) := by
  funext a; match a with | ⟨0, _⟩ => rfl | ⟨1, _⟩ => rfl
theorem bc_v51 (e : Fin 1600000) (k : Fin 128) : idx_main_v51 (ix2 e k) = ix2 e (0 : Fin 1) := by
  funext a; match a with | ⟨0, _⟩ => rfl | ⟨1, _⟩ => rfl
theorem bc_v40 (n : Fin 100000) (k : Fin 128) : idx_main_v40 (ix2 n k) = ix2 n (0 : Fin 1) := by
  funext a; match a with | ⟨0, _⟩ => rfl | ⟨1, _⟩ => rfl
theorem bc_v63 (n : Fin 100000) (k : Fin 128) : idx_main_v63 (ix2 n k) = ix2 n (0 : Fin 1) := by
  funext a; match a with | ⟨0, _⟩ => rfl | ⟨1, _⟩ => rfl
theorem red_v36 (n : Fin 100000) (k : Fin 128) : idx_main_v36 (ix1 n) k = ix2 n k := by
  funext a; match a with | ⟨0, _⟩ => rfl | ⟨1, _⟩ => rfl
theorem red_v56 (n : Fin 100000) (k : Fin 128) : idx_main_v56 (ix1 n) k = ix2 n k := by
  funext a; match a with | ⟨0, _⟩ => rfl | ⟨1, _⟩ => rfl
theorem bc_v66 (n : Fin 100000) (k : Fin 128) : idx_main_v66 (ix2 n k) = ix2 (0 : Fin 1) k := by
  funext a; match a with | ⟨0, _⟩ => rfl | ⟨1, _⟩ => rfl
theorem bc_v69 (n : Fin 100000) (k : Fin 128) : idx_main_v69 (ix2 n k) = ix2 (0 : Fin 1) k := by
  funext a; match a with | ⟨0, _⟩ => rfl | ⟨1, _⟩ => rfl
theorem row_v65 (k : Fin 128) : idx_main_v65 (ix2 (0 : Fin 1) k) = ix1 k := by
  funext a; match a with | ⟨0, _⟩ => rfl
theorem row_v68 (k : Fin 128) : idx_main_v68 (ix2 (0 : Fin 1) k) = ix1 k := by
  funext a; match a with | ⟨0, _⟩ => rfl

local notation "cEps" => Ideal.ofBits FTy.f32 0x358637BD#32
local notation "cHalf" => Ideal.ofBits FTy.f32 0xBF000000#32
local notation "c128" => Ideal.ofBits FTy.f32 0x43000000#32

section Stages

variable (x0 : (⟨S100000x128, .f32⟩ : BufTy).Contents (Elt Ideal)) (x1 : (⟨S1600000, .f32⟩ : BufTy).Contents (Elt Ideal))
  (x4 x5 : (⟨S1600000, .i32⟩ : BufTy).Contents (Elt Ideal))

/-! ## The degree and the factor -/

/-- The degree of node n: the sum of the values of the edges whose row number is n. -/
theorem deg_apply (n : Fin 100000) :
    val_main_v2 (F := Ideal) x1 x4 (ix1 n) = Cert.LapNorm.deg (Cert.LapNorm.landsW x4) (fun e => x1 (ix1 e)) n := by
  unfold val_main_v2
  have hd : scatter_S100000_S1600000x1_S1600000_n_0_0_1
      = Cert.SegmentDims.vecDims 100000 1600000 Facts₀.scatter_S100000_S1600000x1_S1600000_n_0_0_1_wf := rfl
  rw [hd, Cert.SegmentSum.scatterAdd_vec_apply _ (Cert.SegmentDims.vec_start0 _) (Cert.SegmentDims.vec_window0 _)]
  rw [val_main_v0_apply, val_main_cst_apply, Ideal.ofBits_def, Ideal.ofBits_zero_f32, zero_add]
  unfold Cert.LapNorm.deg
  refine Finset.sum_congr (Finset.filter_congr fun e _ => ?_) (fun e _ => rfl)
  rw [val_main_v1_apply, col_v1]
  rfl

/-- The factor of node n: the degree plus the constant, to the power minus one half. -/
theorem dis_apply (n : Fin 100000) :
    val_main_v6 (F := Ideal) x1 x4 (ix1 n)
      = Cert.LapNorm.dis (Cert.LapNorm.landsW x4) (fun e => x1 (ix1 e)) cEps cHalf n := by
  rw [val_main_v6_apply, val_main_v4_apply, val_main_v3_apply, val_main_cst_0_apply, val_main_v5_apply,
    val_main_cst_1_apply, Ideal.hostPowf_def, Ideal.addf_def, Ideal.ofBits_def, Ideal.ofBits_def, deg_apply]
  rfl

/-! ## The adjusted row numbers -/

theorem word_v12 (e : Fin 1600000) :
    val_main_v12 (F := Ideal) x4 (ix2 e (0 : Fin 1)) = Cert.LapNorm.wrapW (x4 (ix1 e)) := by
  rw [val_main_v12_apply, col_v12, val_main_v11_apply, val_main_v8_apply, val_main_v10_apply, val_main_v7_apply,
    val_main_c_apply, val_main_v9_apply, val_main_c_2_apply]
  rfl

theorem word_v20 (e : Fin 1600000) :
    val_main_v20 (F := Ideal) x5 (ix2 e (0 : Fin 1)) = Cert.LapNorm.wrapW (x5 (ix1 e)) := by
  rw [val_main_v20_apply, col_v20, val_main_v19_apply, val_main_v16_apply, val_main_v18_apply, val_main_v15_apply,
    val_main_c_3_apply, val_main_v17_apply, val_main_c_4_apply]
  rfl

theorem word_v29 (e : Fin 1600000) :
    val_main_v29 (F := Ideal) x5 (ix2 e (0 : Fin 1)) = Cert.LapNorm.wrapW (x5 (ix1 e)) := by
  rw [val_main_v29_apply, col_v29, val_main_v28_apply, val_main_v25_apply, val_main_v27_apply, val_main_v24_apply,
    val_main_c_5_apply, val_main_v26_apply, val_main_c_6_apply]
  rfl

theorem word_v48 (e : Fin 1600000) :
    val_main_v48 (F := Ideal) x5 (ix2 e (0 : Fin 1)) = Cert.LapNorm.wrapW (x5 (ix1 e)) := by
  rw [val_main_v48_apply, col_v48, val_main_v47_apply, val_main_v44_apply, val_main_v46_apply, val_main_v43_apply,
    val_main_c_10_apply, val_main_v45_apply, val_main_c_11_apply]
  rfl

/-! ## The looked-up factors and the weight -/

/-- The factor looked up by an edge's row number. -/
theorem disRow_apply (e : Fin 1600000) :
    val_main_v13 (F := Ideal) x1 x4 (ix1 e)
      = Cert.LapNorm.dis (Cert.LapNorm.landsW x4) (fun e => x1 (ix1 e)) cEps cHalf (Cert.LapNorm.srcW x4 e) := by
  unfold val_main_v13
  have hd : gather_S100000_S1600000x1_S1600000_n_0_n_n_0_1_1
      = Cert.GatherRows.vecDims 100000 1600000 Facts₀.gather_S100000_S1600000x1_S1600000_n_0_n_n_0_1_1_wf := rfl
  rw [hd, Cert.GatherRows.gather_vec_apply (by norm_num : 0 < 100000), word_v12, dis_apply]
  rfl

/-- The factor looked up by an edge's column number. -/
theorem disCol_apply (e : Fin 1600000) :
    val_main_v21 (F := Ideal) x1 x4 x5 (ix1 e)
      = Cert.LapNorm.dis (Cert.LapNorm.landsW x4) (fun e => x1 (ix1 e)) cEps cHalf (Cert.LapNorm.srcW x5 e) := by
  unfold val_main_v21
  have hd : gather_S100000_S1600000x1_S1600000_n_0_n_n_0_1_1
      = Cert.GatherRows.vecDims 100000 1600000 Facts₀.gather_S100000_S1600000x1_S1600000_n_0_n_n_0_1_1_wf := rfl
  rw [hd, Cert.GatherRows.gather_vec_apply (by norm_num : 0 < 100000), word_v20, dis_apply]
  rfl

/-- The weight of an edge. -/
theorem wgt_apply (e : Fin 1600000) :
    val_main_v22 (F := Ideal) x1 x4 x5 (ix1 e)
      = Cert.LapNorm.wgt (Cert.LapNorm.landsW x4) (Cert.LapNorm.srcW x5) (Cert.LapNorm.srcW x4) (fun e => x1 (ix1 e))
          cEps cHalf e := by
  rw [val_main_v22_apply, val_main_v14_apply, disRow_apply, disCol_apply, Ideal.mulf_def, Ideal.mulf_def]
  rfl

/-! ## The first aggregation, its mean, the centred rows -/

/-- A looked-up feature row. -/
theorem xCol_apply (e : Fin 1600000) (k : Fin 128) :
    val_main_v30 (F := Ideal) x0 x5 (ix2 e k) = x0 (ix2 (Cert.LapNorm.srcW x5 e) k) := by
  unfold val_main_v30
  have hd : gather_S100000x128_S1600000x1_S1600000x128_1_0_n_n_0_1_1128
      = Cert.GatherRows.rowDims 100000 128 1600000
          Facts₀.gather_S100000x128_S1600000x1_S1600000x128_1_0_n_n_0_1_1128_wf := rfl
  rw [hd, Cert.GatherRows.gather_rows_apply (by norm_num : 0 < 100000), word_v29]
  rfl

/-- The aggregated row of node n: the weighted sum of the looked-up feature rows over the edges landing on n. -/
theorem agg_apply (n : Fin 100000) (k : Fin 128) :
    val_main_v35 (F := Ideal) x0 x1 x4 x5 (ix2 n k)
      = Cert.LapNorm.aggR (Cert.LapNorm.landsW x4) (Cert.LapNorm.srcW x5) (Cert.LapNorm.srcW x4)
          (fun n k => x0 (ix2 n k)) (fun e => x1 (ix1 e)) cEps cHalf n k := by
  unfold val_main_v35
  have hd : scatter_S100000x128_S1600000x1_S1600000x128_1_0_0_1
      = Cert.SegmentDims.rowsDims 100000 128 1600000 Facts₀.scatter_S100000x128_S1600000x1_S1600000x128_1_0_0_1_wf := rfl
  rw [hd, Cert.SegmentSum.scatterAdd_rows_apply _ (Cert.SegmentDims.rows_start0 _) (Cert.SegmentDims.rows_start1 _)
    (Cert.SegmentDims.rows_window0 _) (Cert.SegmentDims.rows_window1 _)]
  rw [val_main_v33_apply, val_main_cst_7_apply, Ideal.ofBits_def, Ideal.ofBits_zero_f32, zero_add]
  unfold Cert.LapNorm.aggR
  refine Finset.sum_congr (Finset.filter_congr fun e _ => ?_) (fun e _ => ?_)
  · rw [val_main_v34_apply, col_v34]
    rfl
  · rw [val_main_v32_apply, val_main_v31_apply, bc_v31, val_main_v23_apply, col_v23, wgt_apply, xCol_apply,
      Ideal.mulf_def]

/-- The mean of the aggregated row. -/
theorem mean_apply (n : Fin 100000) :
    val_main_v39 (F := Ideal) x0 x1 x4 x5 (ix2 n (0 : Fin 1))
      = Cert.LapNorm.meanR (Cert.LapNorm.landsW x4) (Cert.LapNorm.srcW x5) (Cert.LapNorm.srcW x4)
          (fun n k => x0 (ix2 n k)) (fun e => x1 (ix1 e)) cEps cHalf c128 n := by
  rw [val_main_v39_apply, val_main_v37_apply, col_v37, val_main_v36_apply, val_main_cst_8_apply, val_main_v38_apply,
    val_main_cst_9_apply, Ideal.hostDivf_def, Ideal.ofBits_def, Ideal.ofBits_def, Ideal.ofBits_zero_f32, zero_add]
  unfold Cert.LapNorm.meanR
  refine congrArg (fun s => Ideal.div s c128) (Finset.sum_congr rfl (fun k _ => ?_))
  rw [red_v36, agg_apply]

/-- A centred feature. -/
theorem xc_apply (n : Fin 100000) (k : Fin 128) :
    val_main_v41 (F := Ideal) x0 x1 x4 x5 (ix2 n k)
      = Cert.LapNorm.xcR (Cert.LapNorm.landsW x4) (Cert.LapNorm.srcW x5) (Cert.LapNorm.srcW x4)
          (fun n k => x0 (ix2 n k)) (fun e => x1 (ix1 e)) cEps cHalf c128 n k := by
  rw [val_main_v41_apply, val_main_v40_apply, bc_v40, mean_apply, Ideal.subf_def]
  rfl

/-! ## The second aggregation and the variance -/

/-- A looked-up centred row. -/
theorem xcCol_apply (e : Fin 1600000) (k : Fin 128) :
    val_main_v49 (F := Ideal) x0 x1 x4 x5 (ix2 e k)
      = Cert.LapNorm.xcR (Cert.LapNorm.landsW x4) (Cert.LapNorm.srcW x5) (Cert.LapNorm.srcW x4)
          (fun n k => x0 (ix2 n k)) (fun e => x1 (ix1 e)) cEps cHalf c128 (Cert.LapNorm.srcW x5 e) k := by
  unfold val_main_v49
  have hd : gather_S100000x128_S1600000x1_S1600000x128_1_0_n_n_0_1_1128
      = Cert.GatherRows.rowDims 100000 128 1600000
          Facts₀.gather_S100000x128_S1600000x1_S1600000x128_1_0_n_n_0_1_1128_wf := rfl
  rw [hd, Cert.GatherRows.gather_rows_apply (by norm_num : 0 < 100000), word_v48, xc_apply]
  rfl

/-- The second aggregated row: the weighted sum of the looked-up squared centred rows over the edges landing on n. -/
theorem agg2_apply (n : Fin 100000) (k : Fin 128) :
    val_main_v55 (F := Ideal) x0 x1 x4 x5 (ix2 n k)
      = Cert.LapNorm.agg2R (Cert.LapNorm.landsW x4) (Cert.LapNorm.srcW x5) (Cert.LapNorm.srcW x4)
          (fun n k => x0 (ix2 n k)) (fun e => x1 (ix1 e)) cEps cHalf c128 n k := by
  unfold val_main_v55
  have hd : scatter_S100000x128_S1600000x1_S1600000x128_1_0_0_1
      = Cert.SegmentDims.rowsDims 100000 128 1600000 Facts₀.scatter_S100000x128_S1600000x1_S1600000x128_1_0_0_1_wf := rfl
  rw [hd, Cert.SegmentSum.scatterAdd_rows_apply _ (Cert.SegmentDims.rows_start0 _) (Cert.SegmentDims.rows_start1 _)
    (Cert.SegmentDims.rows_window0 _) (Cert.SegmentDims.rows_window1 _)]
  rw [val_main_v53_apply, val_main_cst_12_apply, Ideal.ofBits_def, Ideal.ofBits_zero_f32, zero_add]
  unfold Cert.LapNorm.agg2R
  refine Finset.sum_congr (Finset.filter_congr fun e _ => ?_) (fun e _ => ?_)
  · rw [val_main_v54_apply, col_v54]
    rfl
  · rw [val_main_v52_apply, val_main_v51_apply, bc_v51, val_main_v42_apply, col_v42, wgt_apply, val_main_v50_apply,
      xcCol_apply, Ideal.mulf_def, Ideal.mulf_def]

end Stages

/-- The variance of node n. -/
theorem var_apply (x0 : (⟨S100000x128, .f32⟩ : BufTy).Contents (Elt Ideal)) (x1 : (⟨S1600000, .f32⟩ : BufTy).Contents (Elt Ideal))
    (x4 x5 : (⟨S1600000, .i32⟩ : BufTy).Contents (Elt Ideal)) (n : Fin 100000) :
    val_main_v59 (F := Ideal) x0 x1 x4 x5 (ix2 n (0 : Fin 1)) =
      Cert.LapNorm.varR (Cert.LapNorm.landsW x4) (Cert.LapNorm.srcW x5) (Cert.LapNorm.srcW x4)
        (fun n k => x0 (ix2 n k)) (fun e => x1 (ix1 e))
        (Ideal.ofBits .f32 0x358637BD#32) (Ideal.ofBits .f32 0xBF000000#32) (Ideal.ofBits .f32 0x43000000#32) n := by
  rw [val_main_v59_apply, val_main_v57_apply, col_v57, val_main_v56_apply, val_main_cst_13_apply, val_main_v58_apply,
    val_main_cst_14_apply, Ideal.hostDivf_def, Ideal.ofBits_def, Ideal.ofBits_def, Ideal.ofBits_zero_f32, zero_add]
  unfold Cert.LapNorm.varR
  refine congrArg (fun s => Ideal.div s (Ideal.ofBits FTy.f32 0x43000000#32)) (Finset.sum_congr rfl (fun k _ => ?_))
  rw [red_v56, agg2_apply]

/-- The normalised output at node n, feature k. -/
theorem out_apply (x0 : (⟨S100000x128, .f32⟩ : BufTy).Contents (Elt Ideal)) (x1 : (⟨S1600000, .f32⟩ : BufTy).Contents (Elt Ideal))
    (x2 x3 : (⟨S128, .f32⟩ : BufTy).Contents (Elt Ideal)) (x4 x5 : (⟨S1600000, .i32⟩ : BufTy).Contents (Elt Ideal))
    (n : Fin 100000) (k : Fin 128) :
    val_main_v70 (F := Ideal) x0 x1 x2 x3 x4 x5 (ix2 n k) =
      Cert.LapNorm.outR (Cert.LapNorm.landsW x4) (Cert.LapNorm.srcW x5) (Cert.LapNorm.srcW x4)
        (fun n k => x0 (ix2 n k)) (fun e => x1 (ix1 e)) (fun k => x2 (ix1 k)) (fun k => x3 (ix1 k))
        (Ideal.ofBits .f32 0x358637BD#32) (Ideal.ofBits .f32 0xBF000000#32) (Ideal.ofBits .f32 0x43000000#32) n k := by
  rw [val_main_v70_apply, val_main_v67_apply, val_main_v64_apply, xc_apply, val_main_v63_apply, bc_v63,
    val_main_v62_apply, val_main_v61_apply, var_apply, val_main_v60_apply, val_main_cst_15_apply,
    val_main_v66_apply, bc_v66, val_main_v65_apply, row_v65, val_main_v69_apply, bc_v69, val_main_v68_apply, row_v68,
    Ideal.addf_def, Ideal.mulf_def, Ideal.hostDivf_def, Ideal.hostUnary_sqrt_def, Ideal.addf_def, Ideal.ofBits_def]
  rfl

end Cert.ReferenceIdeal.RefRead

end
-- ==== Proof.KernelValue.lean ====
/-
  The kernel program's result read at a node and a column.

  The edge weights the kernel program's first host stretch computes are the reference's edge weights: the two programs
  apply the same operations, in the same order, to the same arguments, so the two terms are one term. With the weights
  read as the product of an edge's value and its two node factors, the middle stretch's columns are the per-node mean
  and variance of the second way of writing the normalisation, and the second streaming pass applies them.
-/
import proofs.«175817_j26482768347668_2_alg».proof.Proof.KernelHost
import proofs.«175817_j26482768347668_2_alg».proof.Proof.KernelHostRead
import proofs.«175817_j26482768347668_2_alg».proof.Proof.RefRead

set_option maxRecDepth 16384

noncomputable section

namespace Cert.KernelIdeal.ResultRead

open Cert.KernelIdeal Cert.KernelIdeal.Gen Cert.KernelIdeal.HostDefs
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-- The first host stretch's edge weights are the reference's: the same operations on the same arguments. -/
theorem w_bridge (c : Dev nD) :
    W1 m ρ c (Proc.devRef .tc main_v22) =
      Cert.ReferenceIdeal.Read.val_main_v22 (F := Ideal) (m ((c.tc : Thread nD τ).loc main_arg1))
        (m ((c.tc : Thread nD τ).loc main_arg4)) (m ((c.tc : Thread nD τ).loc main_arg5)) := by
  dsimp only [W1]
  after_results_simp <;> rfl

/-- The normalised rows at row `n`, column `k`. -/
theorem normRows_apply (X : Cert.LapNorm.SX.Idx → EReal) (MC VC : Cert.LapNorm.SC.Idx → EReal)
    (SCL BIA : Cert.LapNorm.SD.Idx → EReal) (n : Fin 100000) (k : Fin 128) :
    Cert.LapNorm.normRows X MC VC SCL BIA (ix2 n k) =
      ((X (ix2 n k) - MC (ix2 n (0 : Fin 1))) * Ideal.rsqrt (VC (ix2 n (0 : Fin 1)) + Ideal.ofBits .f32 0x358637BD#32))
        * SCL (ix1 k) + BIA (ix1 k) := rfl

/-- The result at node `n`, column `k`: the second way of writing the normalisation. -/
theorem result_apply (c : Dev nD) (n : Fin 100000) (k : Fin 128) :
    W4 m ρ c (Proc.devRef .tc main_v56) (ix2 n k) =
      Cert.LapNorm.outK (Cert.LapNorm.landsW (m ((c.tc : Thread nD τ).loc main_arg4)))
        (Cert.LapNorm.srcW (m ((c.tc : Thread nD τ).loc main_arg5))) (Cert.LapNorm.srcW (m ((c.tc : Thread nD τ).loc main_arg4)))
        (fun n k => m ((c.tc : Thread nD τ).loc main_arg0) (ix2 n k)) (fun e => m ((c.tc : Thread nD τ).loc main_arg1) (ix1 e))
        (fun k => m ((c.tc : Thread nD τ).loc main_arg2) (ix1 k)) (fun k => m ((c.tc : Thread nD τ).loc main_arg3) (ix1 k))
        (Ideal.ofBits .f32 0x358637BD#32) (Ideal.ofBits .f32 0xBF000000#32) (Ideal.ofBits .f32 0x43000000#32)
        (Ideal.ofBits .f32 0x40000000#32) n k := by
  have hw : ∀ e : Fin 1600000, W1 m ρ c (Proc.devRef .tc main_v22) (ix1 e) =
      Cert.LapNorm.wgt (Cert.LapNorm.landsW (m ((c.tc : Thread nD τ).loc main_arg4)))
        (Cert.LapNorm.srcW (m ((c.tc : Thread nD τ).loc main_arg5))) (Cert.LapNorm.srcW (m ((c.tc : Thread nD τ).loc main_arg4)))
        (fun e => m ((c.tc : Thread nD τ).loc main_arg1) (ix1 e))
        (Ideal.ofBits .f32 0x358637BD#32) (Ideal.ofBits .f32 0xBF000000#32) e := fun e => by
    rw [w_bridge]
    exact Cert.ReferenceIdeal.RefRead.wgt_apply _ _ _ e
  rw [Cert.KernelIdeal.Host.result_eq]
  rw [normRows_apply]
  rw [Cert.KernelIdeal.HostRead.meanCol_apply (m ((c.tc : Thread nD τ).loc main_arg0)) (m ((c.tc : Thread nD τ).loc main_arg1))
      (W1 m ρ c (Proc.devRef .tc main_v22)) (m ((c.tc : Thread nD τ).loc main_arg4)) (m ((c.tc : Thread nD τ).loc main_arg5)) hw n,
    Cert.KernelIdeal.HostRead.varCol_apply (m ((c.tc : Thread nD τ).loc main_arg0)) (m ((c.tc : Thread nD τ).loc main_arg1))
      (W1 m ρ c (Proc.devRef .tc main_v22)) (m ((c.tc : Thread nD τ).loc main_arg4)) (m ((c.tc : Thread nD τ).loc main_arg5)) hw n]
  rfl

end Cert.KernelIdeal.ResultRead

end
-- ==== Proof.SpecLaw.lean ====
/-
  The two ways of writing the graph normalisation agree on real data.

  With real features and real edge values every stage is the coercion of a real number: a degree is a finite sum of
  reals, a factor a real power of a real, a weight a product of reals, and a quotient by 128 the product with 1/128.
  Over the reals the mean over the 128 columns of a weighted sum over edges is the weighted sum of the column means
  (both are the double sum, read in either order), and the mean of the squared centred row is
  mean x^2 - 2 m mean x + m^2 (the constant m^2 summed over 128 columns and divided by 128 is m^2). So the two
  means and the two variances are the same real numbers. Where that variance plus the constant is positive its
  square root is a positive real, and dividing by it is multiplying by its reciprocal.
-/
import proofs.«175817_j26482768347668_2_alg».proof.Proof.Spec

noncomputable section

namespace Cert.LapNorm

open Idealize.ShloMosaic
open scoped BigOperators

variable {ν κ ε : Type} [Fintype ν] [Fintype κ] [Fintype ε]
variable (lands : ε → ν → Prop) [∀ e n, Decidable (lands e n)] (src srcR : ε → ν)
variable (X : ν → κ → ℝ) (EV : ε → ℝ) (EPS HALF : ℝ)

/-! ## Every stage is a real number -/

theorem deg_coe (n : ν) : deg lands (fun e => ((EV e : ℝ) : EReal)) n = ((degℝ lands EV n : ℝ) : EReal) := by
  unfold deg degℝ; rw [coe_sum]

theorem dis_coe (n : ν) :
    dis lands (fun e => ((EV e : ℝ) : EReal)) (EPS : EReal) (HALF : EReal) n = ((disℝ lands EV EPS HALF n : ℝ) : EReal) := by
  unfold dis disℝ; rw [deg_coe, ← EReal.coe_add]; rfl

theorem wgt_coe (e : ε) :
    wgt lands src srcR (fun e => ((EV e : ℝ) : EReal)) (EPS : EReal) (HALF : EReal) e
      = ((wgtℝ lands src srcR EV EPS HALF e : ℝ) : EReal) := by
  unfold wgt wgtℝ; rw [dis_coe, dis_coe, ← EReal.coe_mul, ← EReal.coe_mul]

theorem s1_coe (n : ν) : s1 (fun n k => ((X n k : ℝ) : EReal)) ((128 : ℝ) : EReal) n = ((s1ℝ X n : ℝ) : EReal) := by
  unfold s1 s1ℝ
  rw [← coe_sum, Ideal.div_coe (by norm_num), ← EReal.coe_mul]

theorem s2_coe (n : ν) : s2 (fun n k => ((X n k : ℝ) : EReal)) ((128 : ℝ) : EReal) n = ((s2ℝ X n : ℝ) : EReal) := by
  unfold s2 s2ℝ
  simp only [← EReal.coe_mul]
  rw [← coe_sum, Ideal.div_coe (by norm_num), ← EReal.coe_mul]

theorem meanK_coe (n : ν) :
    meanK lands src srcR (fun n k => ((X n k : ℝ) : EReal)) (fun e => ((EV e : ℝ) : EReal)) (EPS : EReal) (HALF : EReal)
      ((128 : ℝ) : EReal) n = ((meanℝ lands src srcR X EV EPS HALF n : ℝ) : EReal) := by
  unfold meanK meanℝ
  simp only [wgt_coe, s1_coe, ← EReal.coe_mul]
  rw [← coe_sum]

theorem uK_coe (n : ν) :
    uK lands src srcR (fun n k => ((X n k : ℝ) : EReal)) (fun e => ((EV e : ℝ) : EReal)) (EPS : EReal) (HALF : EReal)
      ((128 : ℝ) : EReal) ((2 : ℝ) : EReal) n = ((uℝ lands src srcR X EV EPS HALF n : ℝ) : EReal) := by
  unfold uK uℝ
  simp only [s2_coe, s1_coe, meanK_coe, ← EReal.coe_mul, ← EReal.coe_sub, ← EReal.coe_add]

theorem varK_coe (n : ν) :
    varK lands src srcR (fun n k => ((X n k : ℝ) : EReal)) (fun e => ((EV e : ℝ) : EReal)) (EPS : EReal) (HALF : EReal)
      ((128 : ℝ) : EReal) ((2 : ℝ) : EReal) n = ((varℝ lands src srcR X EV EPS HALF n : ℝ) : EReal) := by
  unfold varK varℝ
  simp only [wgt_coe, uK_coe, ← EReal.coe_mul]
  rw [← coe_sum]

/-! ## The first way's mean and variance are the second way's -/

theorem aggR_coe (n : ν) (k : κ) :
    aggR lands src srcR (fun n k => ((X n k : ℝ) : EReal)) (fun e => ((EV e : ℝ) : EReal)) (EPS : EReal) (HALF : EReal) n k
      = ((∑ e ∈ Finset.univ.filter (fun e => lands e n), wgtℝ lands src srcR EV EPS HALF e * X (src e) k : ℝ) : EReal) := by
  unfold aggR
  simp only [wgt_coe, ← EReal.coe_mul]
  rw [← coe_sum]

/-- The mean over the columns of the weighted sum over edges is the weighted sum of the column means. -/
theorem mean_law (n : ν) :
    (∑ k, ∑ e ∈ Finset.univ.filter (fun e => lands e n), wgtℝ lands src srcR EV EPS HALF e * X (src e) k) * (1 / 128)
      = meanℝ lands src srcR X EV EPS HALF n := by
  unfold meanℝ s1ℝ
  rw [Finset.sum_comm, Finset.sum_mul]
  refine Finset.sum_congr rfl fun e _ => ?_
  rw [← Finset.mul_sum, mul_assoc]

theorem meanR_coe (n : ν) :
    meanR lands src srcR (fun n k => ((X n k : ℝ) : EReal)) (fun e => ((EV e : ℝ) : EReal)) (EPS : EReal) (HALF : EReal)
      ((128 : ℝ) : EReal) n = ((meanℝ lands src srcR X EV EPS HALF n : ℝ) : EReal) := by
  unfold meanR
  simp only [aggR_coe]
  rw [← coe_sum, Ideal.div_coe (by norm_num), ← EReal.coe_mul, mean_law]

theorem xcR_coe (n : ν) (k : κ) :
    xcR lands src srcR (fun n k => ((X n k : ℝ) : EReal)) (fun e => ((EV e : ℝ) : EReal)) (EPS : EReal) (HALF : EReal)
      ((128 : ℝ) : EReal) n k = ((X n k - meanℝ lands src srcR X EV EPS HALF n : ℝ) : EReal) := by
  unfold xcR; rw [meanR_coe, ← EReal.coe_sub]

theorem agg2R_coe (n : ν) (k : κ) :
    agg2R lands src srcR (fun n k => ((X n k : ℝ) : EReal)) (fun e => ((EV e : ℝ) : EReal)) (EPS : EReal) (HALF : EReal)
      ((128 : ℝ) : EReal) n k
      = ((∑ e ∈ Finset.univ.filter (fun e => lands e n), wgtℝ lands src srcR EV EPS HALF e *
          ((X (src e) k - meanℝ lands src srcR X EV EPS HALF (src e)) * (X (src e) k - meanℝ lands src srcR X EV EPS HALF (src e))) : ℝ) : EReal) := by
  unfold agg2R
  simp only [wgt_coe, xcR_coe, ← EReal.coe_mul]
  rw [← coe_sum]

/-- The mean of a centred row's squares: mean x² − 2 m mean x + m². -/
theorem centred_sq (hcard : Fintype.card κ = 128) (c : ν) (M : ℝ) :
    (∑ k, (X c k - M) * (X c k - M)) * (1 / 128) = (s2ℝ X c - (2 * M) * s1ℝ X c) + M * M := by
  unfold s1ℝ s2ℝ
  have h : ∀ k, (X c k - M) * (X c k - M) = X c k * X c k - (2 * M) * X c k + M * M := fun k => by ring
  simp only [h, Finset.sum_add_distrib, Finset.sum_sub_distrib, ← Finset.mul_sum, Finset.sum_const, Finset.card_univ,
    hcard, nsmul_eq_mul]
  push_cast
  ring

theorem var_law (hcard : Fintype.card κ = 128) (n : ν) :
    (∑ k, ∑ e ∈ Finset.univ.filter (fun e => lands e n), wgtℝ lands src srcR EV EPS HALF e *
        ((X (src e) k - meanℝ lands src srcR X EV EPS HALF (src e)) * (X (src e) k - meanℝ lands src srcR X EV EPS HALF (src e))))
      * (1 / 128) = varℝ lands src srcR X EV EPS HALF n := by
  unfold varℝ uℝ
  rw [Finset.sum_comm, Finset.sum_mul]
  refine Finset.sum_congr rfl fun e _ => ?_
  rw [← Finset.mul_sum, mul_assoc, centred_sq X hcard]

theorem varR_coe (hcard : Fintype.card κ = 128) (n : ν) :
    varR lands src srcR (fun n k => ((X n k : ℝ) : EReal)) (fun e => ((EV e : ℝ) : EReal)) (EPS : EReal) (HALF : EReal)
      ((128 : ℝ) : EReal) n = ((varℝ lands src srcR X EV EPS HALF n : ℝ) : EReal) := by
  unfold varR
  simp only [agg2R_coe]
  rw [← coe_sum, Ideal.div_coe (by norm_num), ← EReal.coe_mul, var_law lands src srcR X EV EPS HALF hcard]

/-! ## The two results -/

/-- On real features and edge values, where the first way's variance plus the constant is positive at every node, the
    two ways give the same result at every node and column, whatever the scale and offset. -/
theorem outK_eq_outR (x : ν → κ → EReal) (ev : ε → EReal) (scale bias : κ → EReal) (eps half c128 two : EReal)
    (hx : ∀ n k, ∃ r : ℝ, x n k = (r : EReal)) (hev : ∀ e, ∃ r : ℝ, ev e = (r : EReal))
    (heps : ∃ r : ℝ, eps = (r : EReal)) (hhalf : ∃ r : ℝ, half = (r : EReal))
    (h128 : c128 = ((128 : ℝ) : EReal)) (h2 : two = ((2 : ℝ) : EReal)) (hcard : Fintype.card κ = 128)
    (hdom : ∀ n, 0 < varR lands src srcR x ev eps half c128 n + eps) (n : ν) (k : κ) :
    outK lands src srcR x ev scale bias eps half c128 two n k = outR lands src srcR x ev scale bias eps half c128 n k := by
  choose X hX using hx
  choose EV hEV using hev
  obtain ⟨EPS, rfl⟩ := heps
  obtain ⟨HALF, rfl⟩ := hhalf
  obtain rfl : x = fun n k => ((X n k : ℝ) : EReal) := funext fun n => funext fun k => hX n k
  obtain rfl : ev = fun e => ((EV e : ℝ) : EReal) := funext hEV
  subst h128 h2
  have hpos : 0 < varℝ lands src srcR X EV EPS HALF n + EPS := by
    have := hdom n
    rw [varR_coe lands src srcR X EV EPS HALF hcard, ← EReal.coe_add] at this
    exact_mod_cast this
  unfold outK outR
  rw [varK_coe, meanK_coe, varR_coe lands src srcR X EV EPS HALF hcard, xcR_coe, ← EReal.coe_add, ← EReal.coe_sub]
  have hs : Real.sqrt (varℝ lands src srcR X EV EPS HALF n + EPS) ≠ 0 := (Real.sqrt_pos.mpr hpos).ne'
  rw [Ideal.rsqrt_coe, if_neg (not_lt.mpr hpos.le), if_neg hpos.ne', Ideal.sqrt_coe, if_neg (not_lt.mpr hpos.le),
    Ideal.div_coe hs, one_div]

end Cert.LapNorm

end
-- ==== Proof.LibFiniteInputs.lean ====
/-
  A precondition "every element of the input has absolute value below +∞", read back: the input's elements are real
  numbers.

  On the extended reals the absolute value max x (-x) is below ⊤ exactly when x is neither ⊤ nor ⊥, that is when x is
  a real number. The precondition is printed as the conjunction, over all elements, of the one-bit comparisons
  |x| < (the pattern 0x7F800000, which denotes ⊤); when that conjunction is 1 every comparison is 1.
-/
import Idealize.ShloMosaic.Lib.ReduceAll
import Idealize.ShloMosaic.PureOps.Ideal.Laws

noncomputable section

namespace Cert.FiniteInputs

open Idealize.ShloMosaic

/-- The single-precision pattern 0x7F800000 denotes +∞. -/
theorem ofBits_f32_inf : Ideal.ofBits .f32 0x7F800000#32 = ⊤ := by
  simp [Ideal.ofBits, Ideal.ieee]

/-- The absolute value of an extended real is below ⊤ exactly when it is a real number. -/
theorem abs_lt_top_iff (x : EReal) : max x (-x) < ⊤ ↔ ∃ r : ℝ, x = (r : EReal) := by
  induction x using EReal.rec with
  | bot =>
    constructor
    · intro h
      rw [EReal.neg_bot, max_eq_right bot_le] at h
      exact absurd h (lt_irrefl _)
    · rintro ⟨r, hr⟩
      exact absurd hr.symm (EReal.coe_ne_bot r)
  | top =>
    constructor
    · intro h
      rw [max_eq_left (le_top)] at h
      exact absurd h (lt_irrefl _)
    · rintro ⟨r, hr⟩
      exact absurd hr.symm (EReal.coe_ne_top r)
  | coe r =>
    constructor
    · intro _
      exact ⟨r, rfl⟩
    · intro _
      rw [← EReal.coe_neg]
      exact max_lt (EReal.coe_lt_top r) (EReal.coe_lt_top (-r))

/-- One element of the precondition: the comparison |x| < T with T = ⊤, as a one-bit word equal to 1, says x is real. -/
theorem real_of_cmp_abs_lt {x T : EReal} (hT : T = ⊤) (h : Ideal.cmp .olt (max x (-x)) T = 1#1) :
    ∃ r : ℝ, x = (r : EReal) := by
  subst hT
  refine (abs_lt_top_iff x).mp ?_
  by_contra hn
  simp [Ideal.cmp, hn] at h

/-- THE PRECONDITION READ BACK: when the conjunction over all elements of the comparisons |v i| < top i is 1, top being
    ⊤ everywhere, every element of v is a real number. -/
theorem all_real_of_all_finite {s t u : Shape} {axes : List (Fin s.rank)} [Subsingleton t.Idx]
    (v top : FVec Ideal s .f32) (htop : ∀ i, top i = ⊤) (init : u.Idx → BitVec 1) (h : s.ReducesTo axes t)
    (hu : 0 < u.numel) (j : t.Idx)
    (e : Host.reduce IntOp.andi (cmpf .olt (Host.absf v) top) init h hu j = 1#1) (i : s.Idx) :
    ∃ r : ℝ, v i = (r : EReal) := by
  have hi : Ideal.cmp .olt (max (v i) (-(v i))) (top i) = 1#1 := Host.reduce_andi_all _ init h hu j e i
  exact real_of_cmp_abs_lt (htop i) hi

end Cert.FiniteInputs
-- ==== Proof.PreRead.lean ====
/-
  The precondition read back. It is a conjunction of one-bit answers: every element of each float input has absolute
  value below +∞ (so it is a real number), and the reference's own variance plus the small constant is above zero at
  every node (the number under the reference's square root, which is also its divisor).
-/
import proofs.«175817_j26482768347668_2_alg».proof.Pre_finite_inputs
import proofs.«175817_j26482768347668_2_alg».proof.Proof.Gen.ReferenceIdeal.Read
import proofs.«175817_j26482768347668_2_alg».proof.Proof.LibFiniteInputs
import Idealize.ShloMosaic.Lib.ReduceAll
import Idealize.ShloMosaic.Lib.ValueIdx

set_option maxRecDepth 16384

noncomputable section

namespace Cert.PreRead

open Idealize.ShloMosaic Idealize.ShloMosaic.ValueIdx

variable [hP : Cert.Pre_finite_inputs.Facts] [hR : Cert.ReferenceIdeal.Facts]

instance : Subsingleton (⟨0, ![]⟩ : Shape).Idx := ⟨fun a b => funext fun d => d.elim0⟩

/-- A scalar laid over a whole array reads the scalar everywhere. -/
theorem splat_apply {s : Shape} {α : Type} (hb : (⟨0, ![]⟩ : Shape).BroadcastsInDim s (![] : Fin 0 → Fin s.rank))
    (y : (⟨0, ![]⟩ : Shape).Idx → α) (i : s.Idx) :
    broadcastInDim s ![] hb y i = y (fun a => a.elim0) :=
  broadcastInDim_apply _ hb y i (fun a => a.elim0) (fun a => a.elim0)

/-- A one-bit "above" answer that is 1 says the strict inequality. -/
theorem lt_of_cmp_ogt {a b : EReal} (h : Ideal.cmp .ogt a b = 1#1) : b < a := by
  by_contra hn
  simp [Ideal.cmp, hn] at h

theorem pre_reads (x0 : FVec Ideal Cert.Pre_finite_inputs.S100000x128 .f32) (x1 : FVec Ideal Cert.Pre_finite_inputs.S1600000 .f32)
    (x2 x3 : FVec Ideal Cert.Pre_finite_inputs.S128 .f32) (x4 x5 : IVec Cert.Pre_finite_inputs.S1600000 32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧
      (∀ i, (0 : EReal) < Cert.ReferenceIdeal.Read.val_main_v61 (F := Ideal) x0 x1 x4 x5 i) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h1, hE⟩ := IntOp.andi_eq_one.mp h0
  obtain ⟨h2, hD⟩ := IntOp.andi_eq_one.mp h1
  obtain ⟨h3, hC⟩ := IntOp.andi_eq_one.mp h2
  obtain ⟨hA, hB⟩ := IntOp.andi_eq_one.mp h3
  clear h0 h1 h2 h3 hC hD
  refine ⟨fun i => ?_, fun i => ?_, fun i => ?_⟩
  · refine Cert.FiniteInputs.all_real_of_all_finite x0 _ (fun j => ?_) _ _ _ ix0 hA i
    rw [splat_apply]; exact Cert.FiniteInputs.ofBits_f32_inf
  · refine Cert.FiniteInputs.all_real_of_all_finite x1 _ (fun j => ?_) _ _ _ ix0 hB i
    rw [splat_apply]; exact Cert.FiniteInputs.ofBits_f32_inf
  · have hi := Host.reduce_andi_all _ _ _ _ ix0 hE i
    have hlt := lt_of_cmp_ogt hi
    rw [splat_apply] at hlt
    have hlt' : Ideal.ofBits .f32 0x00000000#32 < _ := hlt
    rw [Ideal.ofBits_zero_f32] at hlt'
    exact hlt'

end Cert.PreRead

end
-- ==== Proof.Consts.lean ====
/-
  The four float constants the two programs spell, as the extended reals their bit patterns denote: 128 (the row
  length the means divide by), 2 (the factor of the cross term of the variance), the small constant added to a
  variance or a degree, and the exponent -1/2 of the degree factor. The first two are needed as exact reals; of the
  last two only that they are reals (not an infinity).
-/
import Idealize.ShloMosaic.PureOps.Ideal

noncomputable section

namespace Cert.Consts

open Idealize.ShloMosaic

/-- The pattern of `128.0` denotes the real `128`. -/
theorem ofBits_128 : Ideal.ofBits .f32 0x43000000#32 = ((128 : ℝ) : EReal) := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- The small positive constant (about one millionth) denotes a real: its exponent field is neither all ones nor zero. -/
theorem ofBits_eps_real : ∃ r : ℝ, Ideal.ofBits .f32 0x358637BD#32 = (r : EReal) := by
  simp [Ideal.ofBits, Ideal.ieee, -EReal.coe_mul]

/-- The pattern of `-0.5` denotes a real. -/
theorem ofBits_half_real : ∃ r : ℝ, Ideal.ofBits .f32 0xBF000000#32 = (r : EReal) := by
  simp [Ideal.ofBits, Ideal.ieee, -EReal.coe_mul]
  exact ⟨_, (EReal.coe_neg _).symm⟩

end Cert.Consts

end
-- ==== Proof.Agree.lean ====
/-
  Under the precondition the kernel program's result is the reference's result.

  The precondition makes the features and the edge values real numbers and puts the reference's variance plus the small
  constant above zero at every node. The kernel program's result at a node and a column is the second way of writing
  the graph normalisation, the reference's the first way, of the same arguments read the same way; the two ways agree
  on such data.
-/
import proofs.«175817_j26482768347668_2_alg».proof.Proof.KernelValue
import proofs.«175817_j26482768347668_2_alg».proof.Proof.RefRead
import proofs.«175817_j26482768347668_2_alg».proof.Proof.SpecLaw
import proofs.«175817_j26482768347668_2_alg».proof.Proof.PreRead
import proofs.«175817_j26482768347668_2_alg».proof.Proof.Consts
import proofs.«175817_j26482768347668_2_alg».proof.Proof.Gen.Pre_finite_inputs

set_option maxRecDepth 16384

noncomputable section

namespace Cert.Agree

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

theorem kernel_eq_reference (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    W4 m ρ c (Proc.devRef .tc main_v56) =
      Cert.ReferenceIdeal.Read.val_main_v70 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) := by
  obtain ⟨hx, hev, hvar⟩ := Cert.PreRead.pre_reads _ _ _ _ _ _ hpre
  funext i
  obtain ⟨n, k, rfl⟩ : ∃ (n : Fin 100000) (k : Fin 128), i = ix2 n k := ⟨i 0, i 1, eq_ix2 i⟩
  rw [Cert.KernelIdeal.ResultRead.result_apply, Cert.ReferenceIdeal.RefRead.out_apply]
  refine Cert.LapNorm.outK_eq_outR _ _ _ _ _ _ _ _ _ _ _ (fun n k => hx _) (fun e => hev _) Cert.Consts.ofBits_eps_real
    Cert.Consts.ofBits_half_real Cert.Consts.ofBits_128 Cert.Consts.ofBits_two (Fintype.card_fin 128) (fun n => ?_) n k
  have h := hvar (ix2 n (0 : Fin 1))
  rw [Cert.ReferenceIdeal.Read.val_main_v61_apply, Cert.ReferenceIdeal.Read.val_main_v60_apply,
    Cert.ReferenceIdeal.Read.val_main_cst_15_apply, Cert.ReferenceIdeal.RefRead.var_apply] at h
  exact h

end Cert.Agree

end
-- ==== Proof.lean ====
/-
  The certificate of a graph normalisation kernel against its reference, over the extended reals.

  Both programs normalise the feature rows of N = 100000 nodes by a mean and a variance gathered over E = 1600000
  weighted edges. The reference sums weighted 128-wide rows over edges and then takes the row mean (twice: for the
  mean, and for the variance of the centred rows), and divides by the square root of the variance plus a small
  constant. The kernel program takes each node's row mean and mean square in a first streaming pass, sums weighted
  scalars over edges on the host (the variance rebuilt from  s2 − 2 m s1 + m²), and in a second streaming pass centres,
  multiplies by the reciprocal square root, scales and offsets.

  The claim is stated under a precondition: the float inputs are finite, and the reference's own variance plus the
  constant is positive at every node (where it is not, the reference takes the square root of a negative number or
  divides by zero). Under it all quantities are real numbers, the two orders of summation give the same mean and the
  same variance, and dividing by the root is multiplying by the reciprocal root (Proof/SpecLaw.lean).

  The frames: the kernel programs' are the generated frame certificates; the reference's is its generated run with the
  result dropped. The ideal pass rewrote nothing, so the idealisation claim is trivial. For the value claim the kernel
  program is run with its result named (Proof/KernelRun.lean), the result is read back through the second streaming
  pass, the middle host stretch, the first pass and the first host stretch (Proof/KernelBlocks.lean,
  Proof/KernelHost.lean, Proof/KernelHostRead.lean, Proof/KernelValue.lean), the reference's result through its
  generated run and stage lemmas (Proof/RefRead.lean), the precondition is read back (Proof/PreRead.lean), and the two
  are joined in Proof/Agree.lean.
-/
import proofs.«175817_j26482768347668_2_alg».proof.Defs
import proofs.«175817_j26482768347668_2_alg».proof.Proof.Gen.Kernel
import proofs.«175817_j26482768347668_2_alg».proof.Proof.Gen.Kernel.Skeleton
import proofs.«175817_j26482768347668_2_alg».proof.Proof.Gen.Kernel.Launch
import proofs.«175817_j26482768347668_2_alg».proof.Proof.Gen.Kernel.Points
import proofs.«175817_j26482768347668_2_alg».proof.Proof.Gen.Kernel.Frame
import proofs.«175817_j26482768347668_2_alg».proof.Proof.Gen.KernelIdeal
import proofs.«175817_j26482768347668_2_alg».proof.Proof.Gen.KernelIdeal.Skeleton
import proofs.«175817_j26482768347668_2_alg».proof.Proof.Gen.KernelIdeal.Launch
import proofs.«175817_j26482768347668_2_alg».proof.Proof.Gen.KernelIdeal.Points
import proofs.«175817_j26482768347668_2_alg».proof.Proof.Gen.KernelIdeal.Frame
import proofs.«175817_j26482768347668_2_alg».proof.Proof.Gen.ReferenceIdeal
import proofs.«175817_j26482768347668_2_alg».proof.Proof.Gen.Pre_finite_inputs
import proofs.«175817_j26482768347668_2_alg».proof.Proof.Gen.ReferenceIdeal.Read
import proofs.«175817_j26482768347668_2_alg».proof.Proof.KernelRun
import proofs.«175817_j26482768347668_2_alg».proof.Proof.Agree
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run, and the reference's result is the kernel program's. -/
theorem algebraic : Cert.algebraic_KernelIdeal_ReferenceIdeal := by
  intro m ρ m' ρ' hpre hagree
  refine ⟨fun c => Cert.KernelIdeal.Gen.W4 m ρ c (Proc.devRef .tc Cert.KernelIdeal.main_v56),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, (hagree c).1, (hagree c).2.1, (hagree c).2.2.1, (hagree c).2.2.2.1,
    (hagree c).2.2.2.2.1, (hagree c).2.2.2.2.2]
  exact (Cert.Agree.kernel_eq_reference m ρ c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
